-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x512x512 : Shape := ⟨4, ![8, 32, 512, 512]⟩
abbrev S32 : Shape := ⟨1, ![32]⟩
abbrev S_ : Shape := ⟨0, ![]⟩

class Facts : Prop where
  bcast_S_S8x32x512x512 : S_.BroadcastsInDim S8x32x512x512 (![] : Fin 0 → Fin S8x32x512x512.rank)
  reducesTo_S8x32x512x512_S_d0_1_2_3 : S8x32x512x512.ReducesTo [0, 1, 2, 3] S_
  h_S_ : 0 < S_.numel
  bcast_S_S32 : S_.BroadcastsInDim S32 (![] : Fin 0 → Fin S32.rank)
  reducesTo_S32_S_d0 : S32.ReducesTo [0] S_
  reducesTo_S_S_d : S_.ReducesTo [] S_

variable [Facts]

def fn_part1 {F : FTy → Type} [FloatOps F] (main_arg4 : FVec F S_ .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S8x32x512x512 .f32) (main_arg1 : FVec F S8x32x512x512 .f32) (main_arg2 : FVec F S32 .f32) (main_arg3 : FVec F S32 .f32) (main_arg4 : FVec F S_ .f32) : IVec S_ 1 :=
  let main_v0 : FVec F S8x32x512x512 .f32 := Host.absf main_arg0
  let main_cst : FVec F S_ .f32 := constant S_ .f32 0x7F800000#32
  let main_v1 : FVec F S8x32x512x512 .f32 := broadcastInDim S8x32x512x512 ![] bcast_S_S8x32x512x512 main_cst
  let main_v2 : IVec S8x32x512x512 1 := cmpf .olt main_v0 main_v1
  let main_c : IVec S_ 1 := constantI S_ 1 1#1
  let main_v3 : IVec S_ 1 := (fun x v => Host.reduce IntOp.andi x v reducesTo_S8x32x512x512_S_d0_1_2_3 h_S_) main_v2 main_c
  let main_v4 : FVec F S8x32x512x512 .f32 := Host.absf main_arg1
  let main_cst_0 : FVec F S_ .f32 := constant S_ .f32 0x7F800000#32
  let main_v5 : FVec F S8x32x512x512 .f32 := broadcastInDim S8x32x512x512 ![] bcast_S_S8x32x512x512 main_cst_0
  let main_v6 : IVec S8x32x512x512 1 := cmpf .olt main_v4 main_v5
  let main_c_1 : IVec S_ 1 := constantI S_ 1 1#1
  let main_v7 : IVec S_ 1 := (fun x v => Host.reduce IntOp.andi x v reducesTo_S8x32x512x512_S_d0_1_2_3 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_v13 main_v16
-- ==== Kernel.lean ====
abbrev S8x32x512x512 : Shape := ⟨4, ![8, 32, 512, 512]⟩
abbrev S32 : Shape := ⟨1, ![32]⟩
abbrev S_ : Shape := ⟨0, ![]⟩
abbrev S1x32x1x1 : Shape := ⟨4, ![1, 32, 1, 1]⟩
abbrev S1x1x1x1 : Shape := ⟨4, ![1, 1, 1, 1]⟩
abbrev S1x2x512x512 : Shape := ⟨4, ![1, 2, 512, 512]⟩
abbrev S1x2x1x1 : Shape := ⟨4, ![1, 2, 1, 1]⟩
abbrev S1x2x512 : Shape := ⟨3, ![1, 2, 512]⟩
abbrev S1x2x512x1 : Shape := ⟨4, ![1, 2, 512, 1]⟩
abbrev S1x2x1 : Shape := ⟨3, ![1, 2, 1]⟩

abbrev nBuf : Space → Nat
  | .hbm => 9
  | .vmem => 11
  | .smem => 0
  | _ => 0

abbrev bufTy : (tb : Table) → Fin (tcTables nBuf tb) → BufTy
  | .hbm, ⟨0, _⟩ => ⟨S8x32x512x512, .f32⟩
  | .hbm, ⟨1, _⟩ => ⟨S8x32x512x512, .f32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S1x32x1x1, .f32⟩
  | .hbm, ⟨6, _⟩ => ⟨S1x32x1x1, .f32⟩
  | .hbm, ⟨7, _⟩ => ⟨S1x1x1x1, .f32⟩
  | .hbm, ⟨8, _⟩ => ⟨S8x32x512x512, .f32⟩
  | .local _ .vmem, ⟨0, _⟩ => ⟨S1x2x512x512, .f32⟩
  | .local _ .vmem, ⟨1, _⟩ => ⟨S1x2x512x512, .f32⟩
  | .local _ .vmem, ⟨2, _⟩ => ⟨S1x2x512x512, .f32⟩
  | .local _ .vmem, ⟨3, _⟩ => ⟨S1x2x512x512, .f32⟩
  | .local _ .vmem, ⟨4, _⟩ => ⟨S1x2x1x1, .f32⟩
  | .local _ .vmem, ⟨5, _⟩ => ⟨S1x2x1x1, .f32⟩
  | .local _ .vmem, ⟨6, _⟩ => ⟨S1x2x1x1, .f32⟩
  | .local _ .vmem, ⟨7, _⟩ => ⟨S1x2x1x1, .f32⟩
  | .local _ .vmem, ⟨8, _⟩ => ⟨S1x1x1x1, .f32⟩
  | .local _ .vmem, ⟨9, _⟩ => ⟨S1x2x512x512, .f32⟩
  | .local _ .vmem, ⟨10, _⟩ => ⟨S1x2x512x512, .f32⟩
  | _, _ => ⟨S8x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S32_S1x32x1x1 : S32.ShapeCasts S1x32x1x1
  shapeCasts_S_S1x1x1x1 : S_.ShapeCasts S1x1x1x1
  inb_S1x2x512x512_S1x2x512x512_0_0_0_0 : ∀ a, (![0, 0, 0, 0] : Fin 4 → Nat) a + S1x2x512x512.size a ≤ S1x2x512x512.size a
  h_S1x2x512x512 : 0 < S1x2x512x512.numel
  inb_S1x2x1x1_S1x2x1x1_0_0_0_0 : ∀ a, (![0, 0, 0, 0] : Fin 4 → Nat) a + S1x2x1x1.size a ≤ S1x2x1x1.size a
  h_S1x2x1x1 : 0 < S1x2x1x1.numel
  shapeCasts_S1x2x1x1_S1x2x1x1 : S1x2x1x1.ShapeCasts S1x2x1x1
  inb_S1x1x1x1_S1x1x1x1_0_0_0_0 : ∀ a, (![0, 0, 0, 0] : Fin 4 → Nat) a + S1x1x1x1.size a ≤ S1x1x1x1.size a
  h_S1x1x1x1 : 0 < S1x1x1x1.numel
  shapeCasts_S1x1x1x1_S1x1x1x1 : S1x1x1x1.ShapeCasts S1x1x1x1
  rotates_S1x2x512x512_d2 : S1x2x512x512.Rotates 2 none
  rotates_S1x2x512x512_d3 : S1x2x512x512.Rotates 3 none
  reduces_S1x2x512x512_S1x2x512 : S1x2x512x512.Reduces [3] S1x2x512
  shapeCasts_S1x2x512_S1x2x512x1 : S1x2x512.ShapeCasts S1x2x512x1
  reduces_S1x2x512x1_S1x2x1 : S1x2x512x1.Reduces [2] S1x2x1
  shapeCasts_S1x2x1_S1x2x1x1 : S1x2x1.ShapeCasts S1x2x1x1
  broadcasts_S1x2x1x1_S1x2x512x512 : S1x2x1x1.Broadcasts S1x2x512x512
  broadcasts_S1x1x1x1_S1x2x512x512 : S1x1x1x1.Broadcasts S1x2x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x512x512.size a ≤ S8x32x512x512.size a
  hwx0_0 : ∀ i : grid0.Coords, EltTy.bits .f32 = 32 ∨ (Rect.block (s := S8x32x512x512) S1x2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x512x512.size a ≤ S8x32x512x512.size a
  hwx0_1 : ∀ i : grid0.Coords, EltTy.bits .f32 = 32 ∨ (Rect.block (s := S8x32x512x512) S1x2x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x1x1.size a ≤ S1x32x1x1.size a
  hwx0_2 : ∀ i : grid0.Coords, EltTy.bits .f32 = 32 ∨ (Rect.block (s := S1x32x1x1) S1x2x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x1x1.size a ≤ S1x32x1x1.size a
  hwx0_3 : ∀ i : grid0.Coords, EltTy.bits .f32 = 32 ∨ (Rect.block (s := S1x32x1x1) S1x2x1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x1x1.size a ≤ S1x1x1x1.size a
  hwx0_4 : ∀ i : grid0.Coords, EltTy.bits .f32 = 32 ∨ (Rect.block (s := S1x1x1x1) S1x1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2x512x512.size a ≤ S8x32x512x512.size a
  hwx0_5 : ∀ i : grid0.Coords, EltTy.bits .f32 = 32 ∨ (Rect.block (s := S8x32x512x512) S1x2x512x512.size (cc0_transform_5 i) (hinb0_5 i)).WholeWords (EltTy.packing .f32)

variable [Facts₀]

abbrev win0_0 : Pipeline.Window sig grid0 :=
  Pipeline.Window.ofSpec (Memref.whole main_arg0) S1x2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x2x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x32x512x512 : Shape := ⟨4, ![8, 32, 512, 512]⟩
abbrev S32 : Shape := ⟨1, ![32]⟩
abbrev S_ : Shape := ⟨0, ![]⟩
abbrev S8x32x1x512 : Shape := ⟨4, ![8, 32, 1, 512]⟩
abbrev S8x32x511x512 : Shape := ⟨4, ![8, 32, 511, 512]⟩
abbrev S8x32x512x1 : Shape := ⟨4, ![8, 32, 512, 1]⟩
abbrev S8x32x512x511 : Shape := ⟨4, ![8, 32, 512, 511]⟩
abbrev S1x32x1x1 : Shape := ⟨4, ![1, 32, 1, 1]⟩
abbrev S8x32 : Shape := ⟨2, ![8, 32]⟩
abbrev S8x32x1x1 : Shape := ⟨4, ![8, 32, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S8x32x512x512, .f32⟩
  | .hbm, ⟨1, _⟩ => ⟨S8x32x512x512, .f32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S8x32x1x512, .f32⟩
  | .hbm, ⟨6, _⟩ => ⟨S8x32x511x512, .f32⟩
  | .hbm, ⟨7, _⟩ => ⟨S8x32x512x512, .f32⟩
  | .hbm, ⟨8, _⟩ => ⟨S8x32x511x512, .f32⟩
  | .hbm, ⟨9, _⟩ => ⟨S8x32x1x512, .f32⟩
  | .hbm, ⟨10, _⟩ => ⟨S8x32x512x512, .f32⟩
  | .hbm, ⟨11, _⟩ => ⟨S8x32x512x1, .f32⟩
  | .hbm, ⟨12, _⟩ => ⟨S8x32x512x511, .f32⟩
  | .hbm, ⟨13, _⟩ => ⟨S8x32x512x512, .f32⟩
  | .hbm, ⟨14, _⟩ => ⟨S8x32x512x511, .f32⟩
  | .hbm, ⟨15, _⟩ => ⟨S8x32x512x1, .f32⟩
  | .hbm, ⟨16, _⟩ => ⟨S8x32x512x512, .f32⟩
  | .hbm, ⟨17, _⟩ => ⟨S8x32x512x512, .f32⟩
  | .hbm, ⟨18, _⟩ => ⟨S8x32x512x512, .f32⟩
  | .hbm, ⟨19, _⟩ => ⟨S8x32x512x512, .f32⟩
  | .hbm, ⟨20, _⟩ => ⟨S_, .f32⟩
  | .hbm, ⟨21, _⟩ => ⟨S8x32x512x512, .f32⟩
  | .hbm, ⟨22, _⟩ => ⟨S8x32x512x512, .f32⟩
  | .hbm, ⟨23, _⟩ => ⟨S8x32x512x512, .f32⟩
  | .hbm, ⟨24, _⟩ => ⟨S8x32x512x512, .f32⟩
  | .hbm, ⟨25, _⟩ => ⟨S_, .f32⟩
  | .hbm, ⟨26, _⟩ => ⟨S8x32x512x512, .f32⟩
  | .hbm, ⟨27, _⟩ => ⟨S8x32x512x512, .f32⟩
  | .hbm, ⟨28, _⟩ => ⟨S8x32x512x512, .f32⟩
  | .hbm, ⟨29, _⟩ => ⟨S_, .f32⟩
  | .hbm, ⟨30, _⟩ => ⟨S8x32x512x512, .f32⟩
  | .hbm, ⟨31, _⟩ => ⟨S8x32x512x512, .f32⟩
  | .hbm, ⟨32, _⟩ => ⟨S1x32x1x1, .f32⟩
  | .hbm, ⟨33, _⟩ => ⟨S8x32x512x512, .f32⟩
  | .hbm, ⟨34, _⟩ => ⟨S8x32x512x512, .f32⟩
  | .hbm, ⟨35, _⟩ => ⟨S8x32x512x512, .f32⟩
  | .hbm, ⟨36, _⟩ => ⟨S8x32x512x512, .f32⟩
  | .hbm, ⟨37, _⟩ => ⟨S8x32x512x512, .f32⟩
  | .hbm, ⟨38, _⟩ => ⟨S8x32x512x512, .f32⟩
  | .hbm, ⟨39, _⟩ => ⟨S8x32x512x512, .f32⟩
  | .hbm, ⟨40, _⟩ => ⟨S_, .f32⟩
  | .hbm, ⟨41, _⟩ => ⟨S8x32, .f32⟩
  | .hbm, ⟨42, _⟩ => ⟨S8x32x1x1, .f32⟩
  | .hbm, ⟨43, _⟩ => ⟨S8x32x1x1, .f32⟩
  | .hbm, ⟨44, _⟩ => ⟨S1x32x1x1, .f32⟩
  | .hbm, ⟨45, _⟩ => ⟨S_, .f32⟩
  | .hbm, ⟨46, _⟩ => ⟨S1x32x1x1, .f32⟩
  | .hbm, ⟨47, _⟩ => ⟨S1x32x1x1, .f32⟩
  | .hbm, ⟨48, _⟩ => ⟨S_, .f32⟩
  | .hbm, ⟨49, _⟩ => ⟨S8x32x1x1, .f32⟩
  | .hbm, ⟨50, _⟩ => ⟨S8x32x1x1, .f32⟩
  | .hbm, ⟨51, _⟩ => ⟨S8x32x1x1, .f32⟩
  | .hbm, ⟨52, _⟩ => ⟨S8x32x1x1, .f32⟩
  | .hbm, ⟨53, _⟩ => ⟨S_, .f32⟩
  | .hbm, ⟨54, _⟩ => ⟨S8x32x1x1, .f32⟩
  | .hbm, ⟨55, _⟩ => ⟨S8x32x1x1, .f32⟩
  | .hbm, ⟨56, _⟩ => ⟨S8x32x1x1, .f32⟩
  | .hbm, ⟨57, _⟩ => ⟨S_, .f32⟩
  | .hbm, ⟨58, _⟩ => ⟨S8x32x1x1, .f32⟩
  | .hbm, ⟨59, _⟩ => ⟨S8x32x1x1, .f32⟩
  | .hbm, ⟨60, _⟩ => ⟨S8x32x512x512, .f32⟩
  | .hbm, ⟨61, _⟩ => ⟨S8x32x512x512, .f32⟩
  | .hbm, ⟨62, _⟩ => ⟨S8x32x512x512, .f32⟩
  | .hbm, ⟨63, _⟩ => ⟨S8x32x512x512, .f32⟩
  | .hbm, ⟨64, _⟩ => ⟨S8x32x512x512, .f32⟩
  | .hbm, ⟨65, _⟩ => ⟨S8x32x512x512, .f32⟩
  | .hbm, ⟨66, _⟩ => ⟨S8x32x512x512, .f32⟩
  | .hbm, ⟨67, _⟩ => ⟨S_, .f32⟩
  | .hbm, ⟨68, _⟩ => ⟨S8x32x512x512, .f32⟩
  | .hbm, ⟨69, _⟩ => ⟨S8x32x512x512, .f32⟩
  | .hbm, ⟨70, _⟩ => ⟨S8x32x512x512, .f32⟩
  | _, _ => ⟨S8x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_call2_v0 : Ref sig .tc := ⟨.hbm, 11, rfl⟩
abbrev main_call2_v1 : Ref sig .tc := ⟨.hbm, 12, rfl⟩
abbrev main_v2 : Ref sig .tc := ⟨.hbm, 13, rfl⟩
abbrev main_call3_v0 : Ref sig .tc := ⟨.hbm, 14, rfl⟩
abbrev main_call3_v1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]

class Facts₀ : Prop where
  slices_S8x32x512x512_S8x32x1x512_0_0_511_0 : S8x32x512x512.Slices ![0, 0, 511, 0] S8x32x1x512
  slices_S8x32x512x512_S8x32x511x512_0_0_0_0 : S8x32x512x512.Slices ![0, 0, 0, 0] S8x32x511x512
  concatenates_S8x32x1x512_S8x32x511x512_S8x32x512x512_d2 : Shape.Concatenates [S8x32x1x512, S8x32x511x512] S8x32x512x512 2
  slices_S8x32x512x512_S8x32x511x512_0_0_1_0 : S8x32x512x512.Slices ![0, 0, 1, 0] S8x32x511x512
  slices_S8x32x512x512_S8x32x1x512_0_0_0_0 : S8x32x512x512.Slices ![0, 0, 0, 0] S8x32x1x512
  concatenates_S8x32x511x512_S8x32x1x512_S8x32x512x512_d2 : Shape.Concatenates [S8x32x511x512, S8x32x1x512] S8x32x512x512 2
  slices_S8x32x512x512_S8x32x512x1_0_0_0_511 : S8x32x512x512.Slices ![0, 0, 0, 511] S8x32x512x1
  slices_S8x32x512x512_S8x32x512x511_0_0_0_0 : S8x32x512x512.Slices ![0, 0, 0, 0] S8x32x512x511
  concatenates_S8x32x512x1_S8x32x512x511_S8x32x512x512_d3 : Shape.Concatenates [S8x32x512x1, S8x32x512x511] S8x32x512x512 3
  slices_S8x32x512x512_S8x32x512x511_0_0_0_1 : S8x32x512x512.Slices ![0, 0, 0, 1] S8x32x512x511
  slices_S8x32x512x512_S8x32x512x1_0_0_0_0 : S8x32x512x512.Slices ![0, 0, 0, 0] S8x32x512x1
  concatenates_S8x32x512x511_S8x32x512x1_S8x32x512x512_d3 : Shape.Concatenates [S8x32x512x511, S8x32x512x1] S8x32x512x512 3
  bcast_S_S8x32x512x512 : S_.BroadcastsInDim S8x32x512x512 (![] : Fin 0 → Fin S8x32x512x512.rank)
  bcast_S32_S1x32x1x1_1 : S32.BroadcastsInDim S1x32x1x1 (![1] : Fin 1 → Fin S1x32x1x1.rank)
  bcast_S1x32x1x1_S8x32x512x512_0_1_2_3 : S1x32x1x1.BroadcastsInDim S8x32x512x512 (![0, 1, 2, 3] : Fin 4 → Fin S8x32x512x512.rank)
  reducesTo_S8x32x512x512_S8x32_d2_3 : S8x32x512x512.ReducesTo [2, 3] S8x32
  h_S_ : 0 < S_.numel
  bcast_S8x32_S8x32x1x1_0_1 : S8x32.BroadcastsInDim S8x32x1x1 (![0, 1] : Fin 2 → Fin S8x32x1x1.rank)
  bcast_S_S1x32x1x1 : S_.BroadcastsInDim S1x32x1x1 (![] : Fin 0 → Fin S1x32x1x1.rank)
  bcast_S_S8x32x1x1 : S_.BroadcastsInDim S8x32x1x1 (![] : Fin 0 → Fin S8x32x1x1.rank)
  bcast_S1x32x1x1_S8x32x1x1_0_1_2_3 : S1x32x1x1.BroadcastsInDim S8x32x1x1 (![0, 1, 2, 3] : Fin 4 → Fin S8x32x1x1.rank)
  bcast_S8x32x1x1_S8x32x512x512_0_1_2_3 : S8x32x1x1.BroadcastsInDim S8x32x512x512 (![0, 1, 2, 3] : Fin 4 → Fin S8x32x512x512.rank)

variable [Facts₀]

class Facts : Prop extends Facts₀ where

variable [Facts]
-- ==== Proof.Cyclic.lean ====
/-
  Cyclic neighbours in a 512 x 512 plane, and the block operations that reach them.

  prev h = (h + 511) mod 512 and next h = (h + 1) mod 512 are the cyclic predecessor and successor of a coordinate.
  A rotation of a [1, 2, 512, 512] block by n along an axis reads, at coordinate h of that axis, the operand at
  (h + 512 - n mod 512) mod 512: by 1 that is prev h, by 511 it is next h. A [1, 2, 1, 1] or [1, 1, 1, 1] block
  broadcast to [1, 2, 512, 512] reads, at (0, c, h, w), the operand at (0, c, 0, 0) or (0, 0, 0, 0).
-/
import Idealize.ShloMosaic.Lib.KernelVsHost
import Idealize.ShloMosaic.Lib.ValueIdx
import Idealize.ShloMosaic.Lib.Pipeline.Value

noncomputable section

namespace Cert.PdeStep

open Idealize.ShloMosaic Idealize.ShloMosaic.ValueIdx

/-- The cyclic predecessor of a coordinate below 512. -/
def prev (h : Fin 512) : Fin 512 := ⟨(h.val + 511) % 512, Nat.mod_lt _ (by decide)⟩
/-- The cyclic successor of a coordinate below 512. -/
def next (h : Fin 512) : Fin 512 := ⟨(h.val + 1) % 512, Nat.mod_lt _ (by decide)⟩

variable {α : Type}

/-- Rotation by 1 along axis 2: row h holds the operand's row prev h. -/
theorem rotate_rows_one (x : (⟨4, ![1, 2, 512, 512]⟩ : Shape).Idx → α) (hr : (⟨4, ![1, 2, 512, 512]⟩ : Shape).Rotates 2 none)
    (u : Fin 1) (cc : Fin 2) (h w : Fin 512) :
    dynamicRotate 2 1#32 none x hr (ix4 u cc h w) = x (ix4 u cc (prev h) w) :=
  dynamicRotate_apply 2 1#32 x hr _ _ (fun b => match b with
    | ⟨0, _⟩ => by rw [if_neg (Fin.ne_of_val_ne (by show (0 : Nat) ≠ 2; decide))]
    | ⟨1, _⟩ => by rw [if_neg (Fin.ne_of_val_ne (by show (1 : Nat) ≠ 2; decide))]
    | ⟨2, hlt⟩ => by
        have e : (⟨2, hlt⟩ : Fin (⟨4, ![1, 2, 512, 512]⟩ : Shape).rank) = 2 := Fin.ext rfl
        rw [if_pos e]
        show (h.val + 511) % 512 = (h.val + 512 - 1 % 512) % 512
        omega
    | ⟨3, _⟩ => by rw [if_neg (Fin.ne_of_val_ne (by show (3 : Nat) ≠ 2; decide))])

/-- Rotation by 511 along axis 2: row h holds the operand's row next h. -/
theorem rotate_rows_back (x : (⟨4, ![1, 2, 512, 512]⟩ : Shape).Idx → α) (hr : (⟨4, ![1, 2, 512, 512]⟩ : Shape).Rotates 2 none)
    (u : Fin 1) (cc : Fin 2) (h w : Fin 512) :
    dynamicRotate 2 511#32 none x hr (ix4 u cc h w) = x (ix4 u cc (next h) w) :=
  dynamicRotate_apply 2 511#32 x hr _ _ (fun b => match b with
    | ⟨0, _⟩ => by rw [if_neg (Fin.ne_of_val_ne (by show (0 : Nat) ≠ 2; decide))]
    | ⟨1, _⟩ => by rw [if_neg (Fin.ne_of_val_ne (by show (1 : Nat) ≠ 2; decide))]
    | ⟨2, hlt⟩ => by
        have e : (⟨2, hlt⟩ : Fin (⟨4, ![1, 2, 512, 512]⟩ : Shape).rank) = 2 := Fin.ext rfl
        rw [if_pos e]
        show (h.val + 1) % 512 = (h.val + 512 - 511 % 512) % 512
        omega
    | ⟨3, _⟩ => by rw [if_neg (Fin.ne_of_val_ne (by show (3 : Nat) ≠ 2; decide))])

/-- Rotation by 1 along axis 3: column w holds the operand's column prev w. -/
theorem rotate_cols_one (x : (⟨4, ![1, 2, 512, 512]⟩ : Shape).Idx → α) (hr : (⟨4, ![1, 2, 512, 512]⟩ : Shape).Rotates 3 none)
    (u : Fin 1) (cc : Fin 2) (h w : Fin 512) :
    dynamicRotate 3 1#32 none x hr (ix4 u cc h w) = x (ix4 u cc h (prev w)) :=
  dynamicRotate_apply 3 1#32 x hr _ _ (fun b => match b with
    | ⟨0, _⟩ => by rw [if_neg (Fin.ne_of_val_ne (by show (0 : Nat) ≠ 3; decide))]
    | ⟨1, _⟩ => by rw [if_neg (Fin.ne_of_val_ne (by show (1 : Nat) ≠ 3; decide))]
    | ⟨2, _⟩ => by rw [if_neg (Fin.ne_of_val_ne (by show (2 : Nat) ≠ 3; decide))]
    | ⟨3, hlt⟩ => by
        have e : (⟨3, hlt⟩ : Fin (⟨4, ![1, 2, 512, 512]⟩ : Shape).rank) = 3 := Fin.ext rfl
        rw [if_pos e]
        show (w.val + 511) % 512 = (w.val + 512 - 1 % 512) % 512
        omega)

/-- Rotation by 511 along axis 3: column w holds the operand's column next w. -/
theorem rotate_cols_back (x : (⟨4, ![1, 2, 512, 512]⟩ : Shape).Idx → α) (hr : (⟨4, ![1, 2, 512, 512]⟩ : Shape).Rotates 3 none)
    (u : Fin 1) (cc : Fin 2) (h w : Fin 512) :
    dynamicRotate 3 511#32 none x hr (ix4 u cc h w) = x (ix4 u cc h (next w)) :=
  dynamicRotate_apply 3 511#32 x hr _ _ (fun b => match b with
    | ⟨0, _⟩ => by rw [if_neg (Fin.ne_of_val_ne (by show (0 : Nat) ≠ 3; decide))]
    | ⟨1, _⟩ => by rw [if_neg (Fin.ne_of_val_ne (by show (1 : Nat) ≠ 3; decide))]
    | ⟨2, _⟩ => by rw [if_neg (Fin.ne_of_val_ne (by show (2 : Nat) ≠ 3; decide))]
    | ⟨3, hlt⟩ => by
        have e : (⟨3, hlt⟩ : Fin (⟨4, ![1, 2, 512, 512]⟩ : Shape).rank) = 3 := Fin.ext rfl
        rw [if_pos e]
        show (w.val + 1) % 512 = (w.val + 512 - 511 % 512) % 512
        omega)

/-- A per-channel [1, 2, 1, 1] block broadcast over the plane reads the channel's one entry. -/
theorem broadcast_channel (x : (⟨4, ![1, 2, 1, 1]⟩ : Shape).Idx → α)
    (hb : (⟨4, ![1, 2, 1, 1]⟩ : Shape).Broadcasts ⟨4, ![1, 2, 512, 512]⟩) (u : Fin 1) (cc : Fin 2) (h w : Fin 512) :
    broadcastTo ⟨4, ![1, 2, 512, 512]⟩ x hb (ix4 u cc h w) = x (ix4 (0 : Fin 1) cc (0 : Fin 1) (0 : Fin 1)) :=
  broadcastTo_apply x hb _ _ (fun a => match a with
    | ⟨0, _⟩ => by show 0 = if (1 : Nat) = 1 then 0 else _; rw [if_pos rfl]
    | ⟨1, _⟩ => by show cc.val = if (2 : Nat) = 1 then 0 else cc.val; rw [if_neg (by decide)]
    | ⟨2, _⟩ => by show 0 = if (1 : Nat) = 1 then 0 else _; rw [if_pos rfl]
    | ⟨3, _⟩ => by show 0 = if (1 : Nat) = 1 then 0 else _; rw [if_pos rfl])

/-- A [1, 1, 1, 1] block broadcast over the block reads its one entry. -/
theorem broadcast_single (x : (⟨4, ![1, 1, 1, 1]⟩ : Shape).Idx → α)
    (hb : (⟨4, ![1, 1, 1, 1]⟩ : Shape).Broadcasts ⟨4, ![1, 2, 512, 512]⟩) (u : Fin 1) (cc : Fin 2) (h w : Fin 512) :
    broadcastTo ⟨4, ![1, 2, 512, 512]⟩ x hb (ix4 u cc h w) = x (ix4 (0 : Fin 1) (0 : Fin 1) (0 : Fin 1) (0 : Fin 1)) :=
  broadcastTo_apply x hb _ _ (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show 0 = if (1 : Nat) = 1 then 0 else _; rw [if_pos rfl]
    | ⟨3, _⟩ => by show 0 = if (1 : Nat) = 1 then 0 else _; rw [if_pos rfl])

end Cert.PdeStep

end
-- ==== Proof.LibTrailingUnit.lean ====
/-
  A trailing axis of extent 1 added by a shape cast.

  A sum along the last axis that keeps that axis with extent 1 (a keepdims reduction) is printed as the reduction followed
  by a cast from [a, b] to [a, b, 1], or from [a, b, c] to [a, b, c, 1]. Multiplying a row-major position by 1 and adding 0
  leaves it unchanged, so the cast reads, at (i, j, 0) or (i, j, k, 0), the operand at (i, j) or (i, j, k). Any extents.
-/
import Idealize.ShloMosaic.Lib.ValueIdx
import Idealize.ShloMosaic.Lib.Pipeline.Value

namespace Idealize.ShloMosaic.TrailingUnit

open Idealize.ShloMosaic Idealize.ShloMosaic.ValueIdx

variable {α : Type}

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, c] array cast to [a, b, c, 1] reads, at (i, j, k, u), the operand at (i, j, k). -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

end Idealize.ShloMosaic.TrailingUnit
-- ==== Proof.PlaneSum.lean ====
/-
  The sum over one channel's plane, three ways.

  The reference sums an [8, 32, 512, 512] array over its last two axes in one reduction: at (b, c) the initial value plus
  the sum of the entries whose first two coordinates are (b, c). Those entries are exactly the (b, c, p, q) for
  p, q < 512, each once, so the sum is the double sum over p and q (addition of extended reals is commutative and
  associative, so the order of a finite sum does not matter; no finiteness is needed here).

  The kernel sums a [1, 2, 512, 512] block first along the last axis, restores that axis with extent 1, then sums along
  the third axis and restores it with extent 1. Adding a trailing axis of extent 1 does not move an entry's row-major
  position, and a sum over one axis at a reduced index is the sum over that axis's coordinate inserted into the index:
  at (0, c, 0, 0) this is again the double sum over p and q of the block's entries (0, c, p, q).
-/
import Idealize.ShloMosaic.PureOps.Ideal.Laws
import Idealize.ShloMosaic.Lib.ValueIdx
import Idealize.ShloMosaic.Lib.Pipeline.Value
import proofs.«142238_j15994458211424_2_alg».proof.Proof.LibTrailingUnit

noncomputable section

namespace Cert.PdeStep

open Idealize.ShloMosaic Idealize.ShloMosaic.ValueIdx Idealize.ShloMosaic.TrailingUnit

/-- The host's sum of an [8, 32, 512, 512] array over its last two axes, read at (b, c): the initial value plus the
    double sum over the plane's coordinates. -/
theorem hostSum_plane (h' : (⟨4, ![8, 32, 512, 512]⟩ : Shape).ReducesTo [2, 3] ⟨2, ![8, 32]⟩)
    (x : (⟨4, ![8, 32, 512, 512]⟩ : Shape).Idx → EReal) (init : EReal) (b : Fin 8) (c : Fin 32) :
    Ideal.hostReduceAdd h' x init (ix2 b c) = init + ∑ p : Fin 512, ∑ q : Fin 512, x (ix4 b c p q) := by
  unfold Ideal.hostReduceAdd
  congr 1
  rw [← Finset.sum_product']
  have back : ∀ i : (⟨4, ![8, 32, 512, 512]⟩ : Shape).Idx, h'.drop i = ix2 b c →
      ix4 b c (i 2 : Fin 512) (i 3 : Fin 512) = i := by
    intro i hd
    funext a
    match a with
    | ⟨0, _⟩ =>
      exact Fin.ext ((h'.drop_apply_val_of_eq i 0 0).symm.trans
        (congrArg (fun j : (⟨2, ![8, 32]⟩ : Shape).Idx => (j 0).val) hd)).symm
    | ⟨1, _⟩ =>
      exact Fin.ext ((h'.drop_apply_val_of_eq i 1 1).symm.trans
        (congrArg (fun j : (⟨2, ![8, 32]⟩ : Shape).Idx => (j 1).val) hd)).symm
    | ⟨2, _⟩ => rfl
    | ⟨3, _⟩ => rfl
  refine Finset.sum_bij' (fun i _ => ((i 2 : Fin 512), (i 3 : Fin 512))) (fun z _ => ix4 b c z.1 z.2) ?_ ?_ ?_ ?_ ?_
  · intro i _; exact Finset.mem_product.mpr ⟨Finset.mem_univ _, Finset.mem_univ _⟩
  · intro z _
    refine Finset.mem_filter.mpr ⟨Finset.mem_univ _, funext fun a => ?_⟩
    match a with
    | ⟨0, _⟩ => exact Fin.ext (h'.drop_apply_val_of_eq (ix4 b c z.1 z.2) 0 0)
    | ⟨1, _⟩ => exact Fin.ext (h'.drop_apply_val_of_eq (ix4 b c z.1 z.2) 1 1)
  · intro i hi; exact back i (Finset.mem_filter.mp hi).2
  · intro z _; rfl
  · intro i hi; exact congrArg x (back i (Finset.mem_filter.mp hi).2).symm

/-- The kernel's two single-axis sums of a [1, 2, 512, 512] block, each followed by the cast that restores the summed
    axis with extent 1, read at (0, c, 0, 0): the double sum over the plane's coordinates of the block at (0, c, p, q). -/
theorem kernelSum_plane (v : FVec Ideal ⟨4, ![1, 2, 512, 512]⟩ .f32)
    (h3 : (⟨4, ![1, 2, 512, 512]⟩ : Shape).Reduces [3] ⟨3, ![1, 2, 512]⟩)
    (hc1 : (⟨3, ![1, 2, 512]⟩ : Shape).ShapeCasts ⟨4, ![1, 2, 512, 1]⟩)
    (h2 : (⟨4, ![1, 2, 512, 1]⟩ : Shape).Reduces [2] ⟨3, ![1, 2, 1]⟩)
    (hc2 : (⟨3, ![1, 2, 1]⟩ : Shape).ShapeCasts ⟨4, ![1, 2, 1, 1]⟩)
    (hφ : FKind.Formats .f32) (hacc : (0x00000000#32 : BitVec 32) = FKind.add.neutral .f32 hφ) (cc : Fin 2) :
    shapeCast ⟨4, ![1, 2, 1, 1]⟩ (multiReduction .add [2] ⟨3, ![1, 2, 1]⟩
        (shapeCast ⟨4, ![1, 2, 512, 1]⟩ (multiReduction .add [3] ⟨3, ![1, 2, 512]⟩ v 0x00000000#32 h3 hφ hacc) hc1)
        0x00000000#32 h2 hφ hacc) hc2 (ix4 (0 : Fin 1) cc (0 : Fin 1) (0 : Fin 1))
      = ∑ p : Fin 512, ∑ q : Fin 512, v (ix4 (0 : Fin 1) cc p q) := by
  refine (shapeCast_abc_abc1_apply _ hc2 0 cc 0 0).trans ?_
  refine (Ideal.multiReduction_add_single _ _ h2 hφ hacc (ix3 (0 : Fin 1) cc (0 : Fin 1))).trans ?_
  refine Finset.sum_congr rfl fun p _ => ?_
  have e2 : h2.lift (ix3 (0 : Fin 1) cc (0 : Fin 1)) p = ix4 (0 : Fin 1) cc (p : Fin 512) (0 : Fin 1) := by
    funext a
    match a with
    | ⟨0, _⟩ => exact Fin.ext rfl
    | ⟨1, _⟩ => exact Fin.ext rfl
    | ⟨2, _⟩ => exact Fin.ext rfl
    | ⟨3, _⟩ => exact Fin.ext rfl
  rw [e2]
  refine (shapeCast_abc_abc1_apply _ hc1 0 cc p 0).trans ?_
  refine (Ideal.multiReduction_add_single _ _ h3 hφ hacc (ix3 (0 : Fin 1) cc (p : Fin 512))).trans ?_
  refine Finset.sum_congr rfl fun q _ => ?_
  refine congrArg v (funext fun a => ?_)
  match a with
  | ⟨0, _⟩ => exact Fin.ext rfl
  | ⟨1, _⟩ => exact Fin.ext rfl
  | ⟨2, _⟩ => exact Fin.ext rfl
  | ⟨3, _⟩ => exact Fin.ext rfl

end Cert.PdeStep

end
-- ==== Proof.Consts.lean ====
/-
  The float words the two programs spell, as the extended reals they denote.

  An f32 word with exponent field E (neither 0 nor 255) and fraction field T denotes (2^23 + T) * 2^(E - 150), a dyadic
  rational. The two words 0x3DCCCCCD (0.1 rounded to f32) and 0x3D4CCCCD (0.05 rounded to f32) carry the same fraction
  field and exponent fields 123 and 122: the second number is exactly half the first. That is the one relation between
  literals the equivalence of the two programs rests on: the reference multiplies by 0.1f and by 0.5 where the kernel
  multiplies by 0.05f.
-/
import Idealize.ShloMosaic.PureOps.Ideal

noncomputable section

namespace Cert.PdeStep.Consts

open Idealize.ShloMosaic

/-- The zero word denotes 0. -/
theorem lit_zero : Ideal.ofBits .f32 0x00000000#32 = 0 := by
  simp [Ideal.ofBits, Ideal.ieee]

/-- 0x3F800000 denotes 1. -/
theorem lit_one : Ideal.ofBits .f32 0x3F800000#32 = ((1 : ℝ) : EReal) := by
  simp [Ideal.ofBits, Ideal.ieee, -EReal.coe_mul]; norm_num

/-- 0x40800000 denotes 4. -/
theorem lit_four : Ideal.ofBits .f32 0x40800000#32 = ((4 : ℝ) : EReal) := by
  simp [Ideal.ofBits, Ideal.ieee, -EReal.coe_mul]; norm_num

/-- 0x3F000000 denotes 1/2. -/
theorem lit_half : Ideal.ofBits .f32 0x3F000000#32 = ((1 / 2 : ℝ) : EReal) := by
  simp [Ideal.ofBits, Ideal.ieee, -EReal.coe_mul]; norm_num

/-- 0x3DCCCCCD, the f32 nearest 0.1, denotes 13421773 / 2^27. -/
theorem lit_tenth : Ideal.ofBits .f32 0x3DCCCCCD#32 = ((13421773 / 134217728 : ℝ) : EReal) := by
  simp [Ideal.ofBits, Ideal.ieee, -EReal.coe_mul]; norm_num

/-- 0x3D4CCCCD, the f32 nearest 0.05, denotes 13421773 / 2^28: half of the word above. -/
theorem lit_twentieth : Ideal.ofBits .f32 0x3D4CCCCD#32 = ((13421773 / 268435456 : ℝ) : EReal) := by
  simp [Ideal.ofBits, Ideal.ieee, -EReal.coe_mul]; norm_num

/-- 0x322BCC77, the f32 nearest 1e-8, denotes 11258999 / 2^50, a positive real. -/
theorem lit_eps : Ideal.ofBits .f32 0x322BCC77#32 = ((11258999 / 1125899906842624 : ℝ) : EReal) := by
  simp [Ideal.ofBits, Ideal.ieee, -EReal.coe_mul]; norm_num

end Cert.PdeStep.Consts

end
-- ==== Proof.PointLaw.lean ====
/-
  One grid point of the update, as the kernel computes it and as the reference computes it.

  Write s for the centre value, up / dn / lf / rt for its four cyclic neighbours, f for the forcing there, nu, cp, fa for
  the diffusion, coupling and forcing coefficients of the channel, and ss for the sum of the squares of the channel's
  plane. With d = 0.1f, c = 0.05f, e = 1e-8f (the f32 words) and phi = c * tanh (c * (cp / (sqrt ss + e))):

    reference:  s + d * ( nu * (up + dn + lf + rt - 4 s) - (s * (1/2 (rt - lf)) + s * (1/2 (dn - up))) + phi * s + fa * f )
    kernel:     s * ((1 - 4 (d nu)) + d phi - c ((rt - lf) + (dn - up))) + (d nu) * (up + dn + lf + rt) + (d fa) * f

  Over the real numbers these are the same polynomial in the ten letters and phi, because c = d * (1/2) exactly
  (Consts). The regrouping multiplies sums out, which is valid for real entries only: on the extended reals a product does
  not distribute over a sum of opposite infinities. Hence the statement below is about real arguments, and the
  certificate's precondition (every input finite) is what supplies them. The square root is of a nonnegative real and
  the literal e is positive, so the quotient has a nonzero real denominator.
-/
import Idealize.ShloMosaic.PureOps.Ideal
import proofs.«142238_j15994458211424_2_alg».proof.Proof.Consts

noncomputable section

namespace Cert.PdeStep

open Idealize.ShloMosaic

/-- The kernel's value at one point, in the kernel's own grouping of the operations. -/
def kernelPoint (s up dn lf rt f nu cp fa ss : EReal) : EReal :=
  ((s * ((((Ideal.ofBits .f32 0x3F800000#32) - (Ideal.ofBits .f32 0x40800000#32) * ((Ideal.ofBits .f32 0x3DCCCCCD#32) * nu))
            + (Ideal.ofBits .f32 0x3DCCCCCD#32) * ((Ideal.ofBits .f32 0x3D4CCCCD#32) * Ideal.tanh ((Ideal.ofBits .f32 0x3D4CCCCD#32)
                * (cp * Ideal.div (Ideal.ofBits .f32 0x3F800000#32) (Ideal.sqrt ss + Ideal.ofBits .f32 0x322BCC77#32)))))
          - (Ideal.ofBits .f32 0x3D4CCCCD#32) * ((rt - lf) + (dn - up))))
      + ((Ideal.ofBits .f32 0x3DCCCCCD#32) * nu) * (((up + dn) + lf) + rt))
    + ((Ideal.ofBits .f32 0x3DCCCCCD#32) * fa) * f

/-- The reference's value at one point, in the reference's own grouping of the operations. -/
def refPoint (s up dn lf rt f nu cp fa ss : EReal) : EReal :=
  s + (Ideal.ofBits .f32 0x3DCCCCCD#32) *
    ((((nu * ((((up + dn) + lf) + rt) - (Ideal.ofBits .f32 0x40800000#32) * s))
        + -((s * ((Ideal.ofBits .f32 0x3F000000#32) * (rt - lf))) + (s * ((Ideal.ofBits .f32 0x3F000000#32) * (dn - up)))))
      + ((Ideal.ofBits .f32 0x3D4CCCCD#32) * Ideal.tanh ((Ideal.ofBits .f32 0x3D4CCCCD#32)
            * Ideal.div (cp * (Ideal.ofBits .f32 0x3F800000#32)) (Ideal.sqrt ss + Ideal.ofBits .f32 0x322BCC77#32))) * s)
     + fa * f)

/-- On real arguments, with a nonnegative sum of squares, the two groupings give the same number. -/
theorem kernelPoint_eq_refPoint (s up dn lf rt f nu cp fa ss : ℝ) (hss : 0 ≤ ss) :
    kernelPoint (s : EReal) up dn lf rt f nu cp fa ss = refPoint (s : EReal) up dn lf rt f nu cp fa ss := by
  have hden : Real.sqrt ss + 11258999 / 1125899906842624 ≠ 0 := by positivity
  unfold kernelPoint refPoint
  simp only [Consts.lit_one, Consts.lit_four, Consts.lit_half, Consts.lit_tenth, Consts.lit_twentieth, Consts.lit_eps,
    Ideal.sqrt_coe, if_neg (not_lt.mpr hss), ← EReal.coe_add, ← EReal.coe_mul, ← EReal.coe_sub, ← EReal.coe_neg,
    Ideal.div_coe hden, Ideal.tanh_coe]
  have e : (13421773 / 268435456 * (cp * (1 * (1 / (Real.sqrt ss + 11258999 / 1125899906842624)))) : ℝ)
      = 13421773 / 268435456 * (cp * 1 * (1 / (Real.sqrt ss + 11258999 / 1125899906842624))) := by ring
  rw [e]
  exact congrArg (fun r : ℝ => (r : EReal)) (by ring)

end Cert.PdeStep

end
-- ==== Proof.KernelAt.lean ====
/-
  The kernel body's stored value, read at one entry of the block.

  The body loads the blocks of S, of the forcing, of the two per-channel coefficient columns and of the forcing amplitude,
  and stores one [1, 2, 512, 512] value. At entry (0, c, h, w) that value is the pointwise formula kernelPoint of: the
  S block at (0, c, h, w) and at its four cyclic neighbours (the four rotations), the forcing block there, the three
  coefficients at (0, c, 0, 0) and (0, 0, 0, 0) (broadcasts), and the sum of squares of channel c's plane of the S
  block (the two single-axis sums).
-/
import proofs.«142238_j15994458211424_2_alg».proof.Proof.Gen.KernelIdeal.Skeleton
import proofs.«142238_j15994458211424_2_alg».proof.Proof.Cyclic
import proofs.«142238_j15994458211424_2_alg».proof.Proof.PlaneSum
import proofs.«142238_j15994458211424_2_alg».proof.Proof.PointLaw

noncomputable section

namespace Cert.PdeStep.Kernel

open Cert.KernelIdeal Cert.KernelIdeal.Gen Idealize.ShloMosaic Idealize.ShloMosaic.ValueIdx Cert.PdeStep

variable (x0 x1 : FVec Ideal ⟨4, ![1, 2, 512, 512]⟩ .f32) (x2 x3 : FVec Ideal ⟨4, ![1, 2, 1, 1]⟩ .f32)
  (x4 : FVec Ideal ⟨4, ![1, 1, 1, 1]⟩ .f32)

/-- The sum of the four rotations at an entry: the four cyclic neighbours, added in the body's order. -/
theorem neighbourSum_at (cc : Fin 2) (h w : Fin 512) :
    k0_pay8 (F := Ideal) x0 (ix4 (0 : Fin 1) cc h w)
      = ((x0 (ix4 (0 : Fin 1) cc (prev h) w) + x0 (ix4 (0 : Fin 1) cc (next h) w)) + x0 (ix4 (0 : Fin 1) cc h (prev w)))
          + x0 (ix4 (0 : Fin 1) cc h (next w)) := by
  unfold k0_pay8 k0_pay4 k0_pay5 k0_pay6 k0_pay7
  simp only [addf_apply]
  exact congrArg₂ (· + ·) (congrArg₂ (· + ·) (congrArg₂ (· + ·) (rotate_rows_one x0 _ 0 cc h w) (rotate_rows_back x0 _ 0 cc h w))
    (rotate_cols_one x0 _ 0 cc h w)) (rotate_cols_back x0 _ 0 cc h w)

/-- The centred differences at an entry, added in the body's order. -/
theorem neighbourDiff_at (cc : Fin 2) (h w : Fin 512) :
    k0_pay9 (F := Ideal) x0 (ix4 (0 : Fin 1) cc h w)
      = (x0 (ix4 (0 : Fin 1) cc h (next w)) - x0 (ix4 (0 : Fin 1) cc h (prev w)))
          + (x0 (ix4 (0 : Fin 1) cc (next h) w) - x0 (ix4 (0 : Fin 1) cc (prev h) w)) := by
  unfold k0_pay9 k0_pay4 k0_pay5 k0_pay6 k0_pay7
  simp only [addf_apply, subf_apply]
  exact congrArg₂ (· + ·) (congrArg₂ (· - ·) (rotate_cols_back x0 _ 0 cc h w) (rotate_cols_one x0 _ 0 cc h w))
    (congrArg₂ (· - ·) (rotate_rows_back x0 _ 0 cc h w) (rotate_rows_one x0 _ 0 cc h w))

/-- The coupling coefficient over the regularised norm of the channel's plane. -/
theorem coupling_at (cc : Fin 2) :
    k0_pay10 (F := Ideal) x0 x3 (ix4 (0 : Fin 1) cc (0 : Fin 1) (0 : Fin 1))
      = x3 (ix4 (0 : Fin 1) cc (0 : Fin 1) (0 : Fin 1))
          * Ideal.div (Ideal.ofBits .f32 0x3F800000#32)
              (Ideal.sqrt (∑ p : Fin 512, ∑ q : Fin 512, x0 (ix4 (0 : Fin 1) cc p q) * x0 (ix4 (0 : Fin 1) cc p q))
                + Ideal.ofBits .f32 0x322BCC77#32) := by
  unfold k0_pay10
  refine congrArg₂ (· * ·) (congrFun (shapeCast_self x3 _) _) ?_
  refine congrArg (fun z => Ideal.div (Ideal.ofBits .f32 0x3F800000#32) (Ideal.sqrt z + Ideal.ofBits .f32 0x322BCC77#32)) ?_
  exact kernelSum_plane (mulf x0 x0) _ _ _ _ _ _ cc

/-- The last stage of the body over its intermediate values: everything in it is entry by entry except three
    broadcasts of per-channel (or single) values over the plane. -/
theorem combine_at (v3 v28 : FVec Ideal ⟨4, ![1, 2, 1, 1]⟩ .f32) (v7 : FVec Ideal ⟨4, ![1, 1, 1, 1]⟩ .f32)
    (v14 v17 : FVec Ideal ⟨4, ![1, 2, 512, 512]⟩ .f32) (cc : Fin 2) (h w : Fin 512) :
    k0_pay1 (F := Ideal) x0 x1 v3 v7 v14 v17 v28 (Scalar.ofBits .f32 0x3D4CCCCD#32) (ix4 (0 : Fin 1) cc h w)
      = ((x0 (ix4 (0 : Fin 1) cc h w)
            * ((((Ideal.ofBits .f32 0x3F800000#32) - (Ideal.ofBits .f32 0x40800000#32)
                    * ((Ideal.ofBits .f32 0x3DCCCCCD#32) * v3 (ix4 (0 : Fin 1) cc (0 : Fin 1) (0 : Fin 1))))
                + (Ideal.ofBits .f32 0x3DCCCCCD#32) * ((Ideal.ofBits .f32 0x3D4CCCCD#32)
                    * Ideal.tanh ((Ideal.ofBits .f32 0x3D4CCCCD#32) * v28 (ix4 (0 : Fin 1) cc (0 : Fin 1) (0 : Fin 1)))))
              - (Ideal.ofBits .f32 0x3D4CCCCD#32) * v17 (ix4 (0 : Fin 1) cc h w)))
          + ((Ideal.ofBits .f32 0x3DCCCCCD#32) * v3 (ix4 (0 : Fin 1) cc (0 : Fin 1) (0 : Fin 1))) * v14 (ix4 (0 : Fin 1) cc h w))
        + ((Ideal.ofBits .f32 0x3DCCCCCD#32) * v7 (ix4 (0 : Fin 1) (0 : Fin 1) (0 : Fin 1) (0 : Fin 1))) * x1 (ix4 (0 : Fin 1) cc h w) := by
  unfold k0_pay1
  exact congrArg₂ (· + ·)
    (congrArg₂ (· + ·)
      (congrArg (x0 (ix4 (0 : Fin 1) cc h w) * ·)
        (congrArg (· - (Ideal.ofBits .f32 0x3D4CCCCD#32) * v17 (ix4 (0 : Fin 1) cc h w)) (broadcast_channel _ _ 0 cc h w)))
      (congrArg (· * v14 (ix4 (0 : Fin 1) cc h w)) (broadcast_channel _ _ 0 cc h w)))
    (congrArg (· * x1 (ix4 (0 : Fin 1) cc h w)) (broadcast_single _ _ 0 cc h w))

/-- The value the body stores, at entry (0, c, h, w) of the block: the pointwise formula of the loaded blocks. -/
theorem stored_at (cc : Fin 2) (h w : Fin 512) :
    k0_pay1 (F := Ideal) x0 x1 (k0_pay2 x2) (k0_pay3 x4) (k0_pay8 x0) (k0_pay9 x0) (k0_pay10 x0 x3)
        (Scalar.ofBits .f32 0x3D4CCCCD#32) (ix4 (0 : Fin 1) cc h w)
      = kernelPoint (x0 (ix4 (0 : Fin 1) cc h w)) (x0 (ix4 (0 : Fin 1) cc (prev h) w)) (x0 (ix4 (0 : Fin 1) cc (next h) w))
          (x0 (ix4 (0 : Fin 1) cc h (prev w))) (x0 (ix4 (0 : Fin 1) cc h (next w))) (x1 (ix4 (0 : Fin 1) cc h w))
          (x2 (ix4 (0 : Fin 1) cc (0 : Fin 1) (0 : Fin 1))) (x3 (ix4 (0 : Fin 1) cc (0 : Fin 1) (0 : Fin 1)))
          (x4 (ix4 (0 : Fin 1) (0 : Fin 1) (0 : Fin 1) (0 : Fin 1)))
          (∑ p : Fin 512, ∑ q : Fin 512, x0 (ix4 (0 : Fin 1) cc p q) * x0 (ix4 (0 : Fin 1) cc p q)) := by
  refine (combine_at x0 x1 (k0_pay2 x2) (k0_pay10 x0 x3) (k0_pay3 x4) (k0_pay8 x0) (k0_pay9 x0) cc h w).trans ?_
  rw [neighbourSum_at x0 cc h w, neighbourDiff_at x0 cc h w, coupling_at x0 x3 cc,
    show k0_pay2 (F := Ideal) x2 = x2 from shapeCast_self x2 _, show k0_pay3 (F := Ideal) x4 = x4 from shapeCast_self x4 _]
  rfl

end Cert.PdeStep.Kernel

end
-- ==== Proof.PlaneValue.lean ====
/-
  The update of the whole array, entry by entry, as the kernel groups it.

  planeValue S Fo nu4 cp4 fa4 b c h w is the kernel's pointwise formula at entry (b, c, h, w) of the [8, 32, 512, 512]
  array: of S there and at its four cyclic neighbours in the (h, w) plane, of the forcing there, of channel c's
  coefficients, of the forcing amplitude, and of the sum of squares of S over the plane (b, c). The coefficients are
  read from the arrays the kernel is handed, of shapes [1, 32, 1, 1] and [1, 1, 1, 1].
-/
import proofs.«142238_j15994458211424_2_alg».proof.Proof.Cyclic
import proofs.«142238_j15994458211424_2_alg».proof.Proof.PointLaw

noncomputable section

namespace Cert.PdeStep

open Idealize.ShloMosaic Idealize.ShloMosaic.ValueIdx

/-- The kernel's formula at entry (b, c, h, w) of the whole array. -/
def planeValue (S Fo : (⟨4, ![8, 32, 512, 512]⟩ : Shape).Idx → EReal) (nu4 cp4 : (⟨4, ![1, 32, 1, 1]⟩ : Shape).Idx → EReal)
    (fa4 : (⟨4, ![1, 1, 1, 1]⟩ : Shape).Idx → EReal) (b : Fin 8) (c : Fin 32) (h w : Fin 512) : EReal :=
  kernelPoint (S (ix4 b c h w)) (S (ix4 b c (prev h) w)) (S (ix4 b c (next h) w)) (S (ix4 b c h (prev w)))
    (S (ix4 b c h (next w))) (Fo (ix4 b c h w)) (nu4 (ix4 (0 : Fin 1) c (0 : Fin 1) (0 : Fin 1)))
    (cp4 (ix4 (0 : Fin 1) c (0 : Fin 1) (0 : Fin 1))) (fa4 (ix4 (0 : Fin 1) (0 : Fin 1) (0 : Fin 1) (0 : Fin 1)))
    (∑ p : Fin 512, ∑ q : Fin 512, S (ix4 b c p q) * S (ix4 b c p q))

/-- The whole array of those values. -/
def wholeArray (S Fo : (⟨4, ![8, 32, 512, 512]⟩ : Shape).Idx → EReal) (nu4 cp4 : (⟨4, ![1, 32, 1, 1]⟩ : Shape).Idx → EReal)
    (fa4 : (⟨4, ![1, 1, 1, 1]⟩ : Shape).Idx → EReal) : (⟨4, ![8, 32, 512, 512]⟩ : Shape).Idx → EReal :=
  fun i => planeValue S Fo nu4 cp4 fa4 (i 0 : Fin 8) (i 1 : Fin 32) (i 2 : Fin 512) (i 3 : Fin 512)

/-- The pointwise formula respects equality of its ten arguments. -/
theorem kernelPoint_congr {s s' up up' dn dn' lf lf' rt rt' f f' nu nu' cp cp' fa fa' ss ss' : EReal}
    (e1 : s = s') (e2 : up = up') (e3 : dn = dn') (e4 : lf = lf') (e5 : rt = rt') (e6 : f = f') (e7 : nu = nu')
    (e8 : cp = cp') (e9 : fa = fa') (e10 : ss = ss') :
    kernelPoint s up dn lf rt f nu cp fa ss = kernelPoint s' up' dn' lf' rt' f' nu' cp' fa' ss' := by
  rw [e1, e2, e3, e4, e5, e6, e7, e8, e9, e10]

end Cert.PdeStep

end
-- ==== Proof.Blocks.lean ====
/-
  From the blocks the grid points write to the whole output array.

  The grid is 8 x 16; point t = (tb, tc) works on batch tb and on the two channels 2 tc, 2 tc + 1: the blocks of S, of the
  forcing and of the output sit at block index (tb, tc, 0, 0) with extents (1, 2, 512, 512), the two coefficient
  columns at (0, tc, 0, 0) with extents (1, 2, 1, 1), the amplitude at (0, 0, 0, 0). Entry (0, cc, h, w) of a block is
  entry (tb, 2 tc + cc, h, w) of its array (block index times extent plus the coordinate inside the block); the planes
  are whole, so a cyclic neighbour inside the block is the cyclic neighbour in the array, and the block's plane sum is the
  array's. Hence what point t writes back is block t of the whole-array function, and the blocks cover the array (entry
  (b, c, h, w) lies in the block of the point with block index (b, c / 2, 0, 0)): the output array ends as that function.
-/
import proofs.«142238_j15994458211424_2_alg».proof.Proof.Gen.KernelIdeal.Value
import proofs.«142238_j15994458211424_2_alg».proof.Proof.KernelAt
import proofs.«142238_j15994458211424_2_alg».proof.Proof.PlaneValue

noncomputable section

namespace Cert.PdeStep.Kernel

open Cert.KernelIdeal Cert.KernelIdeal.Gen Cert.KernelIdeal.Value Idealize.ShloMosaic Idealize.ShloMosaic.TcCoe Idealize.SL.Sem
open Idealize.ShloMosaic.ValueIdx Cert.PdeStep
open Idealize.ShloMosaic.Pipeline (Dat)

variable (m : (ℓ : Loc nD τ sig) → Buf (Elt Ideal) ℓ) (ρ : Dev nD → PrngReg)

theorem zeroOffsets : (![0, 0, 0, 0] : Fin 4 → Nat) = fun _ => 0 := funext fun a => by fin_cases a <;> rfl

/-- The printed index maps, decided over the 128 grid points: the two big inputs move with the output; the coefficient
    columns follow its channel block; the amplitude stays; the output's block index is (tb, tc, 0, 0) in range. -/
theorem indexMaps : ∀ t : Fin cfg0.N,
    (win0_0.index t (0 : Fin 4) = win0_5.index t (0 : Fin 4) ∧ win0_0.index t (1 : Fin 4) = win0_5.index t (1 : Fin 4)
      ∧ win0_0.index t (2 : Fin 4) = 0 ∧ win0_0.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = 0 ∧ win0_2.index t (1 : Fin 4) = win0_5.index t (1 : Fin 4)
      ∧ win0_2.index t (2 : Fin 4) = 0 ∧ win0_2.index t (3 : Fin 4) = 0)
    ∧ (win0_3.index t (0 : Fin 4) = 0 ∧ win0_3.index t (1 : Fin 4) = win0_5.index t (1 : Fin 4)
      ∧ win0_3.index t (2 : Fin 4) = 0 ∧ win0_3.index t (3 : Fin 4) = 0)
    ∧ (win0_4.index t (0 : Fin 4) = 0 ∧ win0_4.index t (1 : Fin 4) = 0
      ∧ win0_4.index t (2 : Fin 4) = 0 ∧ win0_4.index t (3 : Fin 4) = 0)
    ∧ (win0_5.index t (0 : Fin 4) < 8 ∧ win0_5.index t (1 : Fin 4) < 16
      ∧ win0_5.index t (2 : Fin 4) = 0 ∧ win0_5.index t (3 : Fin 4) = 0) :=
  (by decide +kernel : ∀ t : Fin grid0.N, _)

/-- Every block index (b, q, 0, 0) with b < 8, q < 16 is some point's. -/
theorem indexOnto : ∀ (q0 : Fin 8) (q1 : Fin 16), ∃ t : Fin cfg0.N, win0_5.index t = ![q0.val, q1.val, 0, 0] :=
  (by decide +kernel : ∀ (q0 : Fin 8) (q1 : Fin 16), ∃ t : Fin grid0.N, win0_5.index t = ![q0.val, q1.val, 0, 0])

/-- What point t writes back is block t of the whole-array function of the arrays as the region finds them. -/
theorem flushed_eq (c : Dev nD) (t : Fin cfg0.N) :
    (dats m 0 c).flushed 5 t = ((cfg0.win 5).blk t).view.read (Elt Ideal)
      (wholeArray (V m c main_arg0) (V m c main_arg1) (V m c main_v0) (V m c main_v1) (V m c main_v2)) := by
  rw [flushed5]
  unfold out0_5
  rw [View.canon_unit_zero zeroOffsets]
  simp only [View.ld_unit_zero (S := S1x2x512x512) zeroOffsets, View.ld_unit_zero (S := S1x2x1x1) zeroOffsets,
    View.ld_unit_zero (S := S1x1x1x1) zeroOffsets]
  obtain ⟨⟨a0, a1, a2, a3⟩, ⟨b0, b1, b2, b3⟩, ⟨c0, c1, c2, c3⟩, ⟨d0, d1, d2, d3⟩, ⟨f0, f1, f2, f3⟩, ⟨g0, g1, g2, g3⟩⟩ := indexMaps t
  funext j
  obtain ⟨u, cc, h, w, rfl⟩ : ∃ (u : Fin 1) (cc : Fin 2) (h w : Fin 512), j = ix4 u cc h w := ⟨j 0, j 1, j 2, j 3, eq_ix4 j⟩
  obtain rfl : u = 0 := Subsingleton.elim _ _
  have hB : win0_5.index t (0 : Fin 4) < 8 := g0
  have hC : ∀ cc : Fin 2, win0_5.index t (1 : Fin 4) * 2 + cc.val < 32 := fun cc => by have := cc.isLt; omega
  -- an entry of an input block is the entry of its array at block index times extent plus the inner coordinate
  have r0 : ∀ (cc : Fin 2) (h' w' : Fin 512), iblk m c 0 t (ix4 (0 : Fin 1) cc h' w')
      = V m c main_arg0 (ix4 (⟨win0_5.index t (0 : Fin 4), hB⟩ : Fin 8) (⟨win0_5.index t (1 : Fin 4) * 2 + cc.val, hC cc⟩ : Fin 32) h' w') := by
    intro cc h' w'
    show V m c main_arg0 (((cfg0.win 0).blk t).view.emb (ix4 (0 : Fin 1) cc h' w')) = _
    refine congrArg (V m c main_arg0) (funext fun a => Fin.ext ?_)
    match a with
    | ⟨0, _⟩ => show win0_0.index t (0 : Fin 4) * 1 + 1 * 0 = win0_5.index t (0 : Fin 4); omega
    | ⟨1, _⟩ => show win0_0.index t (1 : Fin 4) * 2 + 1 * cc.val = win0_5.index t (1 : Fin 4) * 2 + cc.val; omega
    | ⟨2, _⟩ => show win0_0.index t (2 : Fin 4) * 512 + 1 * h'.val = h'.val; omega
    | ⟨3, _⟩ => show win0_0.index t (3 : Fin 4) * 512 + 1 * w'.val = w'.val; omega
  have r1 : ∀ (cc : Fin 2) (h' w' : Fin 512), iblk m c 1 t (ix4 (0 : Fin 1) cc h' w')
      = V m c main_arg1 (ix4 (⟨win0_5.index t (0 : Fin 4), hB⟩ : Fin 8) (⟨win0_5.index t (1 : Fin 4) * 2 + cc.val, hC cc⟩ : Fin 32) h' w') := by
    intro cc h' w'
    show V m c main_arg1 (((cfg0.win 1).blk t).view.emb (ix4 (0 : Fin 1) cc h' w')) = _
    refine congrArg (V m c main_arg1) (funext fun a => Fin.ext ?_)
    match a with
    | ⟨0, _⟩ => show win0_1.index t (0 : Fin 4) * 1 + 1 * 0 = win0_5.index t (0 : Fin 4); omega
    | ⟨1, _⟩ => show win0_1.index t (1 : Fin 4) * 2 + 1 * cc.val = win0_5.index t (1 : Fin 4) * 2 + cc.val; omega
    | ⟨2, _⟩ => show win0_1.index t (2 : Fin 4) * 512 + 1 * h'.val = h'.val; omega
    | ⟨3, _⟩ => show win0_1.index t (3 : Fin 4) * 512 + 1 * w'.val = w'.val; omega
  have r2 : ∀ cc : Fin 2, iblk m c 2 t (ix4 (0 : Fin 1) cc (0 : Fin 1) (0 : Fin 1))
      = V m c main_v0 (ix4 (0 : Fin 1) (⟨win0_5.index t (1 : Fin 4) * 2 + cc.val, hC cc⟩ : Fin 32) (0 : Fin 1) (0 : Fin 1)) := by
    intro cc
    show V m c main_v0 (((cfg0.win 2).blk t).view.emb (ix4 (0 : Fin 1) cc (0 : Fin 1) (0 : Fin 1))) = _
    refine congrArg (V m c main_v0) (funext fun a => Fin.ext ?_)
    match a with
    | ⟨0, _⟩ => show win0_2.index t (0 : Fin 4) * 1 + 1 * 0 = 0; omega
    | ⟨1, _⟩ => show win0_2.index t (1 : Fin 4) * 2 + 1 * cc.val = win0_5.index t (1 : Fin 4) * 2 + cc.val; omega
    | ⟨2, _⟩ => show win0_2.index t (2 : Fin 4) * 1 + 1 * 0 = 0; omega
    | ⟨3, _⟩ => show win0_2.index t (3 : Fin 4) * 1 + 1 * 0 = 0; omega
  have r3 : ∀ cc : Fin 2, iblk m c 3 t (ix4 (0 : Fin 1) cc (0 : Fin 1) (0 : Fin 1))
      = V m c main_v1 (ix4 (0 : Fin 1) (⟨win0_5.index t (1 : Fin 4) * 2 + cc.val, hC cc⟩ : Fin 32) (0 : Fin 1) (0 : Fin 1)) := by
    intro cc
    show V m c main_v1 (((cfg0.win 3).blk t).view.emb (ix4 (0 : Fin 1) cc (0 : Fin 1) (0 : Fin 1))) = _
    refine congrArg (V m c main_v1) (funext fun a => Fin.ext ?_)
    match a with
    | ⟨0, _⟩ => show win0_3.index t (0 : Fin 4) * 1 + 1 * 0 = 0; omega
    | ⟨1, _⟩ => show win0_3.index t (1 : Fin 4) * 2 + 1 * cc.val = win0_5.index t (1 : Fin 4) * 2 + cc.val; omega
    | ⟨2, _⟩ => show win0_3.index t (2 : Fin 4) * 1 + 1 * 0 = 0; omega
    | ⟨3, _⟩ => show win0_3.index t (3 : Fin 4) * 1 + 1 * 0 = 0; omega
  have r4 : iblk m c 4 t (ix4 (0 : Fin 1) (0 : Fin 1) (0 : Fin 1) (0 : Fin 1))
      = V m c main_v2 (ix4 (0 : Fin 1) (0 : Fin 1) (0 : Fin 1) (0 : Fin 1)) := by
    show V m c main_v2 (((cfg0.win 4).blk t).view.emb (ix4 (0 : Fin 1) (0 : Fin 1) (0 : Fin 1) (0 : Fin 1))) = _
    refine congrArg (V m c main_v2) (funext fun a => Fin.ext ?_)
    match a with
    | ⟨0, _⟩ => show win0_4.index t (0 : Fin 4) * 1 + 1 * 0 = 0; omega
    | ⟨1, _⟩ => show win0_4.index t (1 : Fin 4) * 1 + 1 * 0 = 0; omega
    | ⟨2, _⟩ => show win0_4.index t (2 : Fin 4) * 1 + 1 * 0 = 0; omega
    | ⟨3, _⟩ => show win0_4.index t (3 : Fin 4) * 1 + 1 * 0 = 0; omega
  -- the output block's entry is the array's entry at the same place
  have e5 : ((cfg0.win 5).blk t).view.emb (ix4 (0 : Fin 1) cc h w)
      = ix4 (⟨win0_5.index t (0 : Fin 4), hB⟩ : Fin 8) (⟨win0_5.index t (1 : Fin 4) * 2 + cc.val, hC cc⟩ : Fin 32) h w := by
    refine funext fun a => Fin.ext ?_
    match a with
    | ⟨0, _⟩ => show win0_5.index t (0 : Fin 4) * 1 + 1 * 0 = win0_5.index t (0 : Fin 4); omega
    | ⟨1, _⟩ => show win0_5.index t (1 : Fin 4) * 2 + 1 * cc.val = win0_5.index t (1 : Fin 4) * 2 + cc.val; omega
    | ⟨2, _⟩ => show win0_5.index t (2 : Fin 4) * 512 + 1 * h.val = h.val; omega
    | ⟨3, _⟩ => show win0_5.index t (3 : Fin 4) * 512 + 1 * w.val = w.val; omega
  show k0_pay1 (F := Ideal) (iblk m c 0 t) (iblk m c 1 t) (k0_pay2 (iblk m c 2 t)) (k0_pay3 (iblk m c 4 t))
      (k0_pay8 (iblk m c 0 t)) (k0_pay9 (iblk m c 0 t)) (k0_pay10 (iblk m c 0 t) (iblk m c 3 t))
      (Scalar.ofBits .f32 0x3D4CCCCD#32) (ix4 (0 : Fin 1) cc h w)
    = wholeArray (V m c main_arg0) (V m c main_arg1) (V m c main_v0) (V m c main_v1) (V m c main_v2)
        (((cfg0.win 5).blk t).view.emb (ix4 (0 : Fin 1) cc h w))
  rw [e5]
  refine (stored_at (iblk m c 0 t) (iblk m c 1 t) (iblk m c 2 t) (iblk m c 3 t) (iblk m c 4 t) cc h w).trans ?_
  unfold wholeArray planeValue
  exact kernelPoint_congr (r0 cc h w) (r0 cc (prev h) w) (r0 cc (next h) w) (r0 cc h (prev w)) (r0 cc h (next w))
    (r1 cc h w) (r2 cc) (r3 cc) r4
    (Finset.sum_congr rfl fun p _ => Finset.sum_congr rfl fun q _ => congrArg₂ (· * ·) (r0 cc p q) (r0 cc p q))

/-- An index of the array is in point t's block iff each coordinate is in the block's range on its axis. -/
theorem mem_blk (t : Fin cfg0.N) (i : S8x32x512x512.Idx) :
    i ∈ ((cfg0.win 5).blk t).view.set ↔ ∀ a : Fin 4, win0_5.index t a * S1x2x512x512.size a ≤ (i a).val
      ∧ (i a).val < win0_5.index t a * S1x2x512x512.size a + S1x2x512x512.size a := by
  show i ∈ ((View.whole main_v3).slice (win0_5.rect t)).set ↔ _
  rw [View.set_slice_whole, Rect.mem_set_unit]
  exact Iff.rfl

/-- Every entry of the output array lies in some point's block: the point with block index (b, c / 2, 0, 0). -/
theorem cover (i : S8x32x512x512.Idx) :
    ∃ t : Fin cfg0.N, (cfg0.win 5).flush t = true ∧ i ∈ ((cfg0.win 5).blk t).view.set := by
  have hi0 : (i 0).val < 8 := (i 0).isLt
  have hi1 : (i 1).val < 32 := (i 1).isLt
  have hi2 : (i 2).val < 512 := (i 2).isLt
  have hi3 : (i 3).val < 512 := (i 3).isLt
  obtain ⟨t, ht⟩ := indexOnto ⟨(i 0).val, hi0⟩ ⟨(i 1).val / 2, by omega⟩
  have q0 : win0_5.index t (0 : Fin 4) = (i 0).val := congrFun ht 0
  have q1 : win0_5.index t (1 : Fin 4) = (i 1).val / 2 := congrFun ht 1
  have q2 : win0_5.index t (2 : Fin 4) = 0 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 2 ≤ (i 1).val ∧ (i 1).val < win0_5.index t (1 : Fin 4) * 2 + 2; omega
  | ⟨2, _⟩ => show win0_5.index t (2 : Fin 4) * 512 ≤ (i 2).val ∧ (i 2).val < win0_5.index t (2 : Fin 4) * 512 + 512; omega
  | ⟨3, _⟩ => show win0_5.index t (3 : Fin 4) * 512 ≤ (i 3).val ∧ (i 3).val < win0_5.index t (3 : Fin 4) * 512 + 512; omega

/-- The output array after the run is the whole-array function of the arrays as the region finds them. -/
theorem final (c : Dev nD) : (dats m 0 c).arrAt 5 cfg0.N
    = wholeArray (V m c main_arg0) (V m c main_arg1) (V m c main_v0) (V m c main_v1) (V m c main_v2) :=
  (dats m 0 c).arrAt_eq_of_cover 5 _ (fun t _ => flushed_eq m c t) cover

end Cert.PdeStep.Kernel

end
-- ==== Proof.HostGlue.lean ====
/-
  What the region finds in the three reshaped coefficient arrays.

  Before the pallas_call the host reshapes nu and the coupling strengths from [32] to [1, 32, 1, 1] and the forcing
  amplitude from rank 0 to [1, 1, 1, 1]. A reshape keeps each entry's row-major position, so entry (0, c, 0, 0) of a
  reshaped column is entry c of the vector, and the one entry of the reshaped amplitude is the amplitude.
-/
import proofs.«142238_j15994458211424_2_alg».proof.Proof.Gen.KernelIdeal.Frame
import Idealize.ShloMosaic.Lib.StableHlo.Run
import Idealize.ShloMosaic.Lib.Pipeline.Value
import Idealize.ShloMosaic.Lib.ValueIdx

noncomputable section

namespace Cert.PdeStep.Kernel

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The reshaped diffusion coefficients, as the region finds them. -/
theorem nu4_eq (c : Dev nD) : (V m c main_v0 : S1x32x1x1.Idx → EReal)
    = shapeCast S1x32x1x1 (m ((c : Thread nD τ).loc main_arg2)) shapeCasts_S32_S1x32x1x1 := by
  dsimp only [Gen.V, Gen.hostOps0]
  after_results
  rfl

/-- The reshaped coupling strengths, as the region finds them. -/
theorem cp4_eq (c : Dev nD) : (V m c main_v1 : S1x32x1x1.Idx → EReal)
    = shapeCast S1x32x1x1 (m ((c : Thread nD τ).loc main_arg3)) shapeCasts_S32_S1x32x1x1 := by
  dsimp only [Gen.V, Gen.hostOps0]
  after_results
  rfl

/-- The reshaped forcing amplitude, as the region finds it. -/
theorem fa4_eq (c : Dev nD) : (V m c main_v2 : S1x1x1x1.Idx → EReal)
    = shapeCast S1x1x1x1 (m ((c : Thread nD τ).loc main_arg4)) shapeCasts_S_S1x1x1x1 := by
  dsimp only [Gen.V, Gen.hostOps0]
  after_results
  rfl

/-- A [32] vector cast to [1, 32, 1, 1] reads, at (0, c, 0, 0), the vector's entry c. -/
theorem column_at {α : Type} (x : (⟨1, ![32]⟩ : Shape).Idx → α) (hc : (⟨1, ![32]⟩ : Shape).ShapeCasts ⟨4, ![1, 32, 1, 1]⟩)
    (ch : Fin 32) : shapeCast ⟨4, ![1, 32, 1, 1]⟩ x hc (ix4 (0 : Fin 1) ch (0 : Fin 1) (0 : Fin 1)) = x (ix1 ch) :=
  shapeCast_apply x hc _ _ (by
    rw [Shape.rowMajor_val_one, Shape.rowMajor_val_four]
    show ch.val = ((0 * 32 + ch.val) * 1 + 0) * 1 + 0
    omega)

/-- Entry (0, c, 0, 0) of the reshaped diffusion coefficients is entry c of nu. -/
theorem nu4_at (c : Dev nD) (ch : Fin 32) :
    V m c main_v0 (ix4 (0 : Fin 1) ch (0 : Fin 1) (0 : Fin 1)) = m ((c : Thread nD τ).loc main_arg2) (ix1 ch) :=
  (congrFun (nu4_eq m c) _).trans (column_at _ _ ch)

/-- Entry (0, c, 0, 0) of the reshaped coupling strengths is entry c of the coupling strengths. -/
theorem cp4_at (c : Dev nD) (ch : Fin 32) :
    V m c main_v1 (ix4 (0 : Fin 1) ch (0 : Fin 1) (0 : Fin 1)) = m ((c : Thread nD τ).loc main_arg3) (ix1 ch) :=
  (congrFun (cp4_eq m c) _).trans (column_at _ _ ch)

/-- The one entry of the reshaped forcing amplitude is the amplitude. -/
theorem fa4_at (c : Dev nD) :
    V m c main_v2 (ix4 (0 : Fin 1) (0 : Fin 1) (0 : Fin 1) (0 : Fin 1)) = m ((c : Thread nD τ).loc main_arg4) ix0 := by
  refine (congrFun (fa4_eq m c) _).trans ?_
  unfold shapeCast
  exact congrArg _ (funext fun a => a.elim0)

end Cert.PdeStep.Kernel

end
-- ==== Proof.RefRolls.lean ====
/-
  The reference's four cyclic shifts, read at an index.

  jnp.roll by one along an axis is printed as two slices joined again: the last row (or column) in front of the first 511,
  or the last 511 in front of the first one. Reading the join at coordinate h of the joined axis: when h falls in the
  first piece the entry comes from that piece at h, otherwise from the second piece at h less the first piece's extent;
  each slice then reads the array at its offset plus the coordinate. Together: the shift by +1 holds the array's entry at
  prev h = (h + 511) mod 512, the shift by -1 the entry at next h = (h + 1) mod 512.
-/
import proofs.«142238_j15994458211424_2_alg».proof.Proof.Gen.ReferenceIdeal.Read
import proofs.«142238_j15994458211424_2_alg».proof.Proof.Cyclic

noncomputable section

namespace Cert.PdeStep.Ref

open Cert.ReferenceIdeal Cert.ReferenceIdeal.Gen Cert.ReferenceIdeal.Read Idealize.ShloMosaic Idealize.ShloMosaic.ValueIdx

variable (x0 : (⟨S8x32x512x512, .f32⟩ : BufTy).Contents (Elt Ideal))

/-- The shift by +1 along the rows holds, at row h, the array's row prev h. -/
theorem up_at (b : Fin 8) (c : Fin 32) (h w : Fin 512) :
    val_main_v0 (F := Ideal) x0 (ix4 b c h w) = x0 (ix4 b c (prev h) w) := by
  unfold val_main_v0
  by_cases h0 : h.val < 1
  · refine (concatenate_pair_apply_left (t := S8x32x512x512) (s₁ := S8x32x1x512) (s₂ := S8x32x511x512) 2
      (val_main_call0_v0 (F := Ideal) x0) (val_main_call0_v1 (F := Ideal) x0) _ (ix4 b c h w) rfl (ix4 b c (⟨h.val, h0⟩ : Fin 1) w)
      (fun a => match a with | ⟨0, _⟩ => rfl | ⟨1, _⟩ => rfl | ⟨2, _⟩ => rfl | ⟨3, _⟩ => rfl)).trans ?_
    rw [val_main_call0_v0_apply]
    refine congrArg x0 (funext fun a => ?_)
    match a with
    | ⟨0, _⟩ => exact Fin.ext rfl
    | ⟨1, _⟩ => exact Fin.ext rfl
    | ⟨2, _⟩ => exact Fin.ext (by show 511 + h.val = (h.val + 511) % 512; omega)
    | ⟨3, _⟩ => exact Fin.ext rfl
  · have h1 : h.val - 1 < 511 := by have := h.isLt; omega
    refine (concatenate_pair_apply_right (t := S8x32x512x512) (s₁ := S8x32x1x512) (s₂ := S8x32x511x512) 2
      (val_main_call0_v0 (F := Ideal) x0) (val_main_call0_v1 (F := Ideal) x0) _ (ix4 b c h w) rfl rfl (ix4 b c (⟨h.val - 1, h1⟩ : Fin 511) w)
      (fun a hne => match a, hne with
        | ⟨0, _⟩, _ => rfl | ⟨1, _⟩, _ => rfl | ⟨2, _⟩, hne => absurd (Fin.ext rfl) hne | ⟨3, _⟩, _ => rfl)
      (by show h.val - 1 + 1 = h.val; omega)).trans ?_
    rw [val_main_call0_v1_apply]
    refine congrArg x0 (funext fun a => ?_)
    match a with
    | ⟨0, _⟩ => exact Fin.ext rfl
    | ⟨1, _⟩ => exact Fin.ext rfl
    | ⟨2, _⟩ => exact Fin.ext (by show h.val - 1 = (h.val + 511) % 512; omega)
    | ⟨3, _⟩ => exact Fin.ext rfl

/-- The shift by -1 along the rows holds, at row h, the array's row next h. -/
theorem down_at (b : Fin 8) (c : Fin 32) (h w : Fin 512) :
    val_main_v1 (F := Ideal) x0 (ix4 b c h w) = x0 (ix4 b c (next h) w) := by
  unfold val_main_v1
  by_cases h0 : h.val < 511
  · refine (concatenate_pair_apply_left (t := S8x32x512x512) (s₁ := S8x32x511x512) (s₂ := S8x32x1x512) 2
      (val_main_call1_v0 (F := Ideal) x0) (val_main_call1_v1 (F := Ideal) x0) _ (ix4 b c h w) rfl (ix4 b c (⟨h.val, h0⟩ : Fin 511) w)
      (fun a => match a with | ⟨0, _⟩ => rfl | ⟨1, _⟩ => rfl | ⟨2, _⟩ => rfl | ⟨3, _⟩ => rfl)).trans ?_
    rw [val_main_call1_v0_apply]
    refine congrArg x0 (funext fun a => ?_)
    match a with
    | ⟨0, _⟩ => exact Fin.ext rfl
    | ⟨1, _⟩ => exact Fin.ext rfl
    | ⟨2, _⟩ => exact Fin.ext (by show 1 + h.val = (h.val + 1) % 512; omega)
    | ⟨3, _⟩ => exact Fin.ext rfl
  · have h1 : h.val - 511 < 1 := by have := h.isLt; omega
    refine (concatenate_pair_apply_right (t := S8x32x512x512) (s₁ := S8x32x511x512) (s₂ := S8x32x1x512) 2
      (val_main_call1_v0 (F := Ideal) x0) (val_main_call1_v1 (F := Ideal) x0) _ (ix4 b c h w) rfl rfl (ix4 b c (⟨h.val - 511, h1⟩ : Fin 1) w)
      (fun a hne => match a, hne with
        | ⟨0, _⟩, _ => rfl | ⟨1, _⟩, _ => rfl | ⟨2, _⟩, hne => absurd (Fin.ext rfl) hne | ⟨3, _⟩, _ => rfl)
      (by show h.val - 511 + 511 = h.val; omega)).trans ?_
    rw [val_main_call1_v1_apply]
    refine congrArg x0 (funext fun a => ?_)
    match a with
    | ⟨0, _⟩ => exact Fin.ext rfl
    | ⟨1, _⟩ => exact Fin.ext rfl
    | ⟨2, _⟩ => exact Fin.ext (by show h.val - 511 = (h.val + 1) % 512; omega)
    | ⟨3, _⟩ => exact Fin.ext rfl

/-- The shift by +1 along the columns holds, at column w, the array's column prev w. -/
theorem left_at (b : Fin 8) (c : Fin 32) (h w : Fin 512) :
    val_main_v2 (F := Ideal) x0 (ix4 b c h w) = x0 (ix4 b c h (prev w)) := by
  unfold val_main_v2
  by_cases h0 : w.val < 1
  · refine (concatenate_pair_apply_left (t := S8x32x512x512) (s₁ := S8x32x512x1) (s₂ := S8x32x512x511) 3
      (val_main_call2_v0 (F := Ideal) x0) (val_main_call2_v1 (F := Ideal) x0) _ (ix4 b c h w) rfl (ix4 b c h (⟨w.val, h0⟩ : Fin 1))
      (fun a => match a with | ⟨0, _⟩ => rfl | ⟨1, _⟩ => rfl | ⟨2, _⟩ => rfl | ⟨3, _⟩ => rfl)).trans ?_
    rw [val_main_call2_v0_apply]
    refine congrArg x0 (funext fun a => ?_)
    match a with
    | ⟨0, _⟩ => exact Fin.ext rfl
    | ⟨1, _⟩ => exact Fin.ext rfl
    | ⟨2, _⟩ => exact Fin.ext rfl
    | ⟨3, _⟩ => exact Fin.ext (by show 511 + w.val = (w.val + 511) % 512; omega)
  · have h1 : w.val - 1 < 511 := by have := w.isLt; omega
    refine (concatenate_pair_apply_right (t := S8x32x512x512) (s₁ := S8x32x512x1) (s₂ := S8x32x512x511) 3
      (val_main_call2_v0 (F := Ideal) x0) (val_main_call2_v1 (F := Ideal) x0) _ (ix4 b c h w) rfl rfl (ix4 b c h (⟨w.val - 1, h1⟩ : Fin 511))
      (fun a hne => match a, hne with
        | ⟨0, _⟩, _ => rfl | ⟨1, _⟩, _ => rfl | ⟨2, _⟩, _ => rfl | ⟨3, _⟩, hne => absurd (Fin.ext rfl) hne)
      (by show w.val - 1 + 1 = w.val; omega)).trans ?_
    rw [val_main_call2_v1_apply]
    refine congrArg x0 (funext fun a => ?_)
    match a with
    | ⟨0, _⟩ => exact Fin.ext rfl
    | ⟨1, _⟩ => exact Fin.ext rfl
    | ⟨2, _⟩ => exact Fin.ext rfl
    | ⟨3, _⟩ => exact Fin.ext (by show w.val - 1 = (w.val + 511) % 512; omega)

/-- The shift by -1 along the columns holds, at column w, the array's column next w. -/
theorem right_at (b : Fin 8) (c : Fin 32) (h w : Fin 512) :
    val_main_v3 (F := Ideal) x0 (ix4 b c h w) = x0 (ix4 b c h (next w)) := by
  unfold val_main_v3
  by_cases h0 : w.val < 511
  · refine (concatenate_pair_apply_left (t := S8x32x512x512) (s₁ := S8x32x512x511) (s₂ := S8x32x512x1) 3
      (val_main_call3_v0 (F := Ideal) x0) (val_main_call3_v1 (F := Ideal) x0) _ (ix4 b c h w) rfl (ix4 b c h (⟨w.val, h0⟩ : Fin 511))
      (fun a => match a with | ⟨0, _⟩ => rfl | ⟨1, _⟩ => rfl | ⟨2, _⟩ => rfl | ⟨3, _⟩ => rfl)).trans ?_
    rw [val_main_call3_v0_apply]
    refine congrArg x0 (funext fun a => ?_)
    match a with
    | ⟨0, _⟩ => exact Fin.ext rfl
    | ⟨1, _⟩ => exact Fin.ext rfl
    | ⟨2, _⟩ => exact Fin.ext rfl
    | ⟨3, _⟩ => exact Fin.ext (by show 1 + w.val = (w.val + 1) % 512; omega)
  · have h1 : w.val - 511 < 1 := by have := w.isLt; omega
    refine (concatenate_pair_apply_right (t := S8x32x512x512) (s₁ := S8x32x512x511) (s₂ := S8x32x512x1) 3
      (val_main_call3_v0 (F := Ideal) x0) (val_main_call3_v1 (F := Ideal) x0) _ (ix4 b c h w) rfl rfl (ix4 b c h (⟨w.val - 511, h1⟩ : Fin 1))
      (fun a hne => match a, hne with
        | ⟨0, _⟩, _ => rfl | ⟨1, _⟩, _ => rfl | ⟨2, _⟩, _ => rfl | ⟨3, _⟩, hne => absurd (Fin.ext rfl) hne)
      (by show w.val - 511 + 511 = w.val; omega)).trans ?_
    rw [val_main_call3_v1_apply]
    refine congrArg x0 (funext fun a => ?_)
    match a with
    | ⟨0, _⟩ => exact Fin.ext rfl
    | ⟨1, _⟩ => exact Fin.ext rfl
    | ⟨2, _⟩ => exact Fin.ext rfl
    | ⟨3, _⟩ => exact Fin.ext (by show w.val - 511 = (w.val + 1) % 512; omega)

end Cert.PdeStep.Ref

end
-- ==== Proof.RefAt.lean ====
/-
  The reference's result, read at one entry.

  Every operation of the reference except the four shifts and the plane sum computes each result entry from one entry of
  each operand, so the result at (b, c, h, w) unfolds, operation by operation, into the pointwise formula refPoint of:
  S there and at its four cyclic neighbours (the shifts), the forcing there, channel c's two coefficients and the forcing
  amplitude (broadcasts, read at the coordinates they keep), and the sum of squares of S over the plane (b, c) (the
  two-axis sum from the zero word, which denotes 0).
-/
import proofs.«142238_j15994458211424_2_alg».proof.Proof.RefRolls
import proofs.«142238_j15994458211424_2_alg».proof.Proof.PointLaw
import proofs.«142238_j15994458211424_2_alg».proof.Proof.PlaneSum
import Idealize.ShloMosaic.Lib.IdealHost

noncomputable section

namespace Cert.PdeStep.Ref

open Cert.ReferenceIdeal Cert.ReferenceIdeal.Gen Cert.ReferenceIdeal.Read Idealize.ShloMosaic Idealize.ShloMosaic.ValueIdx Cert.PdeStep

variable (S Fo : (⟨S8x32x512x512, .f32⟩ : BufTy).Contents (Elt Ideal)) (nu cp : (⟨S32, .f32⟩ : BufTy).Contents (Elt Ideal))
  (fa : (⟨S_, .f32⟩ : BufTy).Contents (Elt Ideal))

/-- The reference's sum of squares over the plane (b, c). -/
theorem sumsq_at (b : Fin 8) (c : Fin 32) :
    val_main_v24 (F := Ideal) S (ix2 b c) = ∑ p : Fin 512, ∑ q : Fin 512, S (ix4 b c p q) * S (ix4 b c p q) := by
  unfold val_main_v24
  refine (hostSum_plane _ _ _ b c).trans ?_
  show Ideal.ofBits .f32 0x00000000#32 + _ = _
  rw [Consts.lit_zero, zero_add]
  rfl

/-- The reference's coupling term of channel c in batch b. -/
theorem phi_at (b : Fin 8) (c : Fin 32) :
    val_main_v38 (F := Ideal) S cp (ix4 b c (0 : Fin 1) (0 : Fin 1))
      = (Ideal.ofBits .f32 0x3D4CCCCD#32) * Ideal.tanh ((Ideal.ofBits .f32 0x3D4CCCCD#32)
          * Ideal.div (cp (ix1 c) * (Ideal.ofBits .f32 0x3F800000#32))
              (Ideal.sqrt (∑ p : Fin 512, ∑ q : Fin 512, S (ix4 b c p q) * S (ix4 b c p q)) + Ideal.ofBits .f32 0x322BCC77#32)) := by
  have e25 : idx_main_v25 (ix4 b c (0 : Fin 1) (0 : Fin 1)) = ix2 b c :=
    funext fun a => match a with | ⟨0, _⟩ => rfl | ⟨1, _⟩ => rfl
  have e27 : idx_main_v27 (idx_main_v32 (ix4 b c (0 : Fin 1) (0 : Fin 1))) = ix1 c :=
    funext fun a => match a with | ⟨0, _⟩ => rfl
  rw [val_main_v38_apply, val_main_v37_apply, val_main_cst_6_apply, val_main_v36_apply, val_main_v35_apply, val_main_v34_apply, val_main_cst_5_apply, val_main_v33_apply, val_main_v32_apply, val_main_v29_apply, val_main_v27_apply, val_main_v28_apply, val_main_cst_3_apply, val_main_v31_apply, val_main_v26_apply, val_main_v25_apply, val_main_v30_apply, val_main_cst_4_apply]
  rw [e25, e27, sumsq_at]
  rfl

/-- The reference's result at entry (b, c, h, w). -/
theorem result_at (b : Fin 8) (c : Fin 32) (h w : Fin 512) :
    val_main_v48 (F := Ideal) S Fo nu cp fa (ix4 b c h w)
      = refPoint (S (ix4 b c h w)) (S (ix4 b c (prev h) w)) (S (ix4 b c (next h) w)) (S (ix4 b c h (prev w)))
          (S (ix4 b c h (next w))) (Fo (ix4 b c h w)) (nu (ix1 c)) (cp (ix1 c)) (fa ix0)
          (∑ p : Fin 512, ∑ q : Fin 512, S (ix4 b c p q) * S (ix4 b c p q)) := by
  have e39 : idx_main_v39 (ix4 b c h w) = ix4 b c (0 : Fin 1) (0 : Fin 1) :=
    funext fun a => match a with | ⟨0, _⟩ => rfl | ⟨1, _⟩ => rfl | ⟨2, _⟩ => rfl | ⟨3, _⟩ => rfl
  have e16 : idx_main_v16 (idx_main_v17 (ix4 b c h w)) = ix1 c :=
    funext fun a => match a with | ⟨0, _⟩ => rfl
  have e43 : idx_main_v43 (ix4 b c h w) = ix0 := funext fun a => a.elim0
  rw [val_main_v48_apply, val_main_v47_apply, val_main_v46_apply, val_main_cst_7_apply, val_main_v45_apply, val_main_v42_apply, val_main_v41_apply, val_main_v18_apply, val_main_v17_apply, val_main_v16_apply, val_main_v9_apply, val_main_v6_apply, val_main_v5_apply, val_main_v4_apply, val_main_v8_apply, val_main_v7_apply, val_main_cst_apply, val_main_v22_apply, val_main_v21_apply, val_main_v19_apply, val_main_v12_apply, val_main_v11_apply, val_main_cst_0_apply, val_main_v10_apply, val_main_v20_apply, val_main_v15_apply, val_main_v14_apply, val_main_cst_1_apply, val_main_v13_apply, val_main_v40_apply, val_main_v39_apply, val_main_v44_apply, val_main_v43_apply]
  rw [up_at, down_at, left_at, right_at, e39, phi_at, e16, e43]
  rfl

end Cert.PdeStep.Ref

end
-- ==== Proof.LibERealSum.lean ====
/-
  Finite sums of products on the extended reals, when every entry is a real number.

  The coercion of ℝ into the extended reals commutes with finite sums (by induction on the index set: it commutes with the
  sum of two reals and sends 0 to 0), and with products. So an identity between finite sums of products of reals holds on
  the extended reals as soon as every entry involved is the image of a real: a common real factor q of the second operands
  moves out of the sum, Σ_k a_k · (b_k · q) = q · Σ_k a_k · b_k. Without that hypothesis the identity fails: with q = ⊤, one
  b_k · a_k positive and another negative, the left side adds ⊤ and ⊥ while the right side multiplies ⊤ by a real.
-/
import Idealize.ShloMosaic.PureOps.Ideal

open scoped BigOperators

namespace Idealize.ShloMosaic.ERealSum

/-- The coercion of the reals into the extended reals commutes with finite sums. -/
theorem coe_finset_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A common real factor of the second operands moves out of a finite sum of products of reals. -/
theorem sum_mul_scaled {ι : Type*} [Fintype ι] (a b : ι → EReal) (q : EReal)
    (ha : ∀ k, ∃ r : ℝ, a k = r) (hb : ∀ k, ∃ r : ℝ, b k = r) (hq : ∃ r : ℝ, q = r) :
    ∑ k, a k * (b k * q) = q * ∑ k, a k * b k := by
  choose a' ha using ha
  choose b' hb using hb
  obtain ⟨q', rfl⟩ := hq
  simp only [ha, hb, ← EReal.coe_mul, ← coe_finset_sum]
  congr 1
  rw [Finset.mul_sum]
  exact Finset.sum_congr rfl fun k _ => by ring

end Idealize.ShloMosaic.ERealSum
-- ==== Proof.Bridge.lean ====
/-
  The two results are one array, when every input entry is a real.

  At entry (b, c, h, w) the reference's result is refPoint of S there and at its four cyclic neighbours, the forcing there,
  channel c's coefficients, the amplitude and the plane's sum of squares; the kernel's array there is kernelPoint of the
  same ten values, its coefficients read from the reshaped arrays at (0, c, 0, 0). With real entries the sum of squares is
  (the image of) a nonnegative real — the coercion of the reals commutes with products and finite sums — and the pointwise
  law kernelPoint = refPoint applies.
-/
import proofs.«142238_j15994458211424_2_alg».proof.Proof.RefAt
import proofs.«142238_j15994458211424_2_alg».proof.Proof.PlaneValue
import proofs.«142238_j15994458211424_2_alg».proof.Proof.LibERealSum

noncomputable section

namespace Cert.PdeStep

open Cert.ReferenceIdeal Cert.ReferenceIdeal.Read Idealize.ShloMosaic Idealize.ShloMosaic.ValueIdx

/-- With real entries, and the reshaped coefficient arrays holding the coefficient vectors' entries, the reference's
    result is the kernel's whole-array function. -/
theorem reference_eq_wholeArray
    (S Fo : (⟨4, ![8, 32, 512, 512]⟩ : Shape).Idx → EReal) (nu cp : (⟨1, ![32]⟩ : Shape).Idx → EReal)
    (fa : (⟨0, ![]⟩ : Shape).Idx → EReal) (nu4 cp4 : (⟨4, ![1, 32, 1, 1]⟩ : Shape).Idx → EReal)
    (fa4 : (⟨4, ![1, 1, 1, 1]⟩ : Shape).Idx → EReal)
    (hnu : ∀ ch : Fin 32, nu4 (ix4 (0 : Fin 1) ch (0 : Fin 1) (0 : Fin 1)) = nu (ix1 ch))
    (hcp : ∀ ch : Fin 32, cp4 (ix4 (0 : Fin 1) ch (0 : Fin 1) (0 : Fin 1)) = cp (ix1 ch))
    (hfa : fa4 (ix4 (0 : Fin 1) (0 : Fin 1) (0 : Fin 1) (0 : Fin 1)) = fa ix0)
    (hS : ∀ i, ∃ r : ℝ, S i = r) (hF : ∀ i, ∃ r : ℝ, Fo i = r) (hN : ∀ i, ∃ r : ℝ, nu i = r)
    (hC : ∀ i, ∃ r : ℝ, cp i = r) (hA : ∀ i, ∃ r : ℝ, fa i = r) :
    val_main_v48 (F := Ideal) S Fo nu cp fa = wholeArray S Fo nu4 cp4 fa4 := by
  funext i
  obtain ⟨b, c, h, w, rfl⟩ : ∃ (b : Fin 8) (c : Fin 32) (h w : Fin 512), i = ix4 b c h w :=
    ⟨i 0, i 1, i 2, i 3, eq_ix4 i⟩
  rw [Ref.result_at]
  show _ = planeValue S Fo nu4 cp4 fa4 b c h w
  unfold planeValue
  rw [hnu, hcp, hfa]
  choose s hs using hS
  choose f hf using hF
  choose n hn using hN
  choose k hk using hC
  choose a ha using hA
  have hss : (0 : ℝ) ≤ ∑ p : Fin 512, ∑ q : Fin 512, s (ix4 b c p q) * s (ix4 b c p q) :=
    Finset.sum_nonneg fun p _ => Finset.sum_nonneg fun q _ => mul_self_nonneg _
  simp only [hs, hf, hn, hk, ha, ← EReal.coe_mul, ← ERealSum.coe_finset_sum]
  exact (kernelPoint_eq_refPoint _ _ _ _ _ _ _ _ _ _ hss).symm

end Cert.PdeStep

end
-- ==== Proof.LibFiniteTest.lean ====
/-
  The test "every entry is finite", read at one entry over the extended reals.

  A precondition `jnp.all(jnp.abs(x) < inf)` prints, per array, as a comparison of `Host.absf x` with the float word of +∞
  lifted to the array's shape. On the extended reals that word denotes ⊤ and |a| is max a (−a), which is below ⊤ exactly
  when a is neither ⊤ nor ⊥: an entry passing the test is the image of a real number.
-/
import Idealize.ShloMosaic.PureOps.Ideal.Laws
import Idealize.ShloMosaic.Lib.ValueIdx

noncomputable section

namespace Idealize.ShloMosaic.FiniteTest

/-- The rank-0 shape has one index. -/
theorem subsingleton_scalarIdx : Subsingleton (⟨0, ![]⟩ : Shape).Idx := ⟨fun a b => funext fun d => d.elim0⟩

/-- The float word of +∞ denotes ⊤. -/
theorem inf_word : Ideal.ofBits .f32 0x7F800000#32 = (⊤ : EReal) := by simp [Ideal.ofBits, Ideal.ieee]

/-- An extended real whose absolute value is below ⊤ is a real number. -/
theorem real_of_abs_lt_top (a : EReal) (h : Ideal.cmp .olt (max a (-a)) (⊤ : EReal) = 1#1) : ∃ r : ℝ, a = r := by
  induction a using EReal.rec with
  | bot => exfalso; simp [Ideal.cmp] at h
  | coe r => exact ⟨r, rfl⟩
  | top => exfalso; simp [Ideal.cmp] at h

/-- One array's test at one entry: an entry whose absolute value compares below the lifted +∞ word is a real number. -/
theorem real_of_test {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = r := by
  have e : Ideal.cmp .olt (max (x i) (-(x i))) (Ideal.ofBits .f32 0x7F800000#32) = 1#1 := h
  rw [inf_word] at e
  exact real_of_abs_lt_top (x i) e

end Idealize.ShloMosaic.FiniteTest

end
-- ==== Proof.Finite.lean ====
/-
  What the precondition says, entry by entry.

  The precondition is the conjunction, over the five arguments, of "every entry's absolute value is below +inf". Read at
  its one (rank-0) index, a conjunction of bits is 1 exactly when each bit is 1; an all-reduction by "and" that is 1 had
  a 1 at every entry; and an entry whose absolute value is below the top element of the extended reals is a real number.
  So under the precondition every entry of every argument is (the image of) a real.
-/
import proofs.«142238_j15994458211424_2_alg».proof.Proof.Gen.Pre_finite_inputs
import proofs.«142238_j15994458211424_2_alg».proof.Proof.LibFiniteTest
import Idealize.ShloMosaic.Lib.ReduceAll
import Idealize.ShloMosaic.Lib.Affine

noncomputable section

namespace Cert.PdeStep

open Cert.Pre_finite_inputs Idealize.ShloMosaic

/-- Under the precondition every entry of each of the five arguments is a real number. -/
theorem reals_of_pre (a0 a1 : FVec Ideal S8x32x512x512 .f32) (a2 a3 : FVec Ideal S32 .f32) (a4 : FVec Ideal S_ .f32)
    (h : Cert.Pre_finite_inputs.fn (F := Ideal) a0 a1 a2 a3 a4 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) := by
  haveI : Subsingleton S_.Idx := FiniteTest.subsingleton_scalarIdx
  have h0 := congrFun h ValueIdx.ix0
  dsimp only [Cert.Pre_finite_inputs.fn, Cert.Pre_finite_inputs.fn_part1] at h0
  obtain ⟨h1, e4⟩ := IntOp.andi_eq_one.mp h0
  obtain ⟨h2, e3⟩ := IntOp.andi_eq_one.mp h1
  obtain ⟨h3, e2⟩ := IntOp.andi_eq_one.mp h2
  obtain ⟨e0, e1⟩ := IntOp.andi_eq_one.mp h3
  refine ⟨fun i => FiniteTest.real_of_test a0 _ i (Host.reduce_andi_all _ _ _ _ _ e0 i),
    fun i => FiniteTest.real_of_test a1 _ i (Host.reduce_andi_all _ _ _ _ _ e1 i),
    fun i => FiniteTest.real_of_test a2 _ i (Host.reduce_andi_all _ _ _ _ _ e2 i),
    fun i => FiniteTest.real_of_test a3 _ i (Host.reduce_andi_all _ _ _ _ _ e3 i), fun i => ?_⟩
  have t := Host.reduce_andi_all _ _ _ _ _ e4 i
  have e : Ideal.cmp .olt (max (a4 i) (-(a4 i))) (Ideal.ofBits .f32 0x7F800000#32) = 1#1 := t
  rw [FiniteTest.inf_word] at e
  exact FiniteTest.real_of_abs_lt_top (a4 i) e

end Cert.PdeStep

end
-- ==== Proof.lean ====
/-
  One explicit time step of a periodic diffusion-advection field with a norm-dependent coupling, computed two ways.

  For S, forcing of shape [8, 32, 512, 512], per-channel coefficients nu, coupling of shape [32] and a forcing amplitude,
  the reference adds to S the step 0.1f times (nu times the five-point Laplacian of S, minus S times the two centred
  differences, plus phi times S, plus amplitude times forcing), where phi = 0.05f tanh (0.05f coupling / (|S|_plane + 1e-8f))
  is computed per (batch, channel) plane from the Euclidean norm of that plane, and every neighbour is cyclic. The kernel
  computes, block of two channels by block, S (1 - 4 (0.1f nu) + 0.1f phi - 0.05f (sum of the two differences))
  + (0.1f nu) (sum of the four neighbours) + (0.1f amplitude) forcing.

  At the extended reals both are the same polynomial in the entries provided every entry is a real number, because the f32
  words of 0.05 and 0.1 denote 13421773 / 2^28 and 13421773 / 2^27, one exactly half the other, so the kernel's folded
  0.05f is the reference's 0.1f times 1/2; the regrouping uses distributivity, which fails at infinities, so the
  precondition (every input finite) is used. The norm plus the positive literal is a nonzero real, so the quotient is an
  honest real quotient. The kernel's rotations by 1 and 511 and the reference's slice-and-join shifts read the same
  cyclic neighbours; the kernel's two single-axis sums and the reference's one two-axis sum are the same double sum.

  The three frames are the programs' runs (the kernels' generated, the reference's its run with the result dropped);
  the idealization rewrote nothing, so its statement is trivial; the value claim sets the kernel's run, its output array
  named entry by entry from the blocks, beside the reference's run, its result read entry by entry.
-/
import proofs.«142238_j15994458211424_2_alg».proof.Defs
import proofs.«142238_j15994458211424_2_alg».proof.Proof.Gen.Kernel
import proofs.«142238_j15994458211424_2_alg».proof.Proof.Gen.Kernel.Skeleton
import proofs.«142238_j15994458211424_2_alg».proof.Proof.Gen.Kernel.Launch
import proofs.«142238_j15994458211424_2_alg».proof.Proof.Gen.Kernel.Points
import proofs.«142238_j15994458211424_2_alg».proof.Proof.Gen.Kernel.Frame
import proofs.«142238_j15994458211424_2_alg».proof.Proof.Gen.KernelIdeal
import proofs.«142238_j15994458211424_2_alg».proof.Proof.Gen.KernelIdeal.Skeleton
import proofs.«142238_j15994458211424_2_alg».proof.Proof.Gen.KernelIdeal.Launch
import proofs.«142238_j15994458211424_2_alg».proof.Proof.Gen.KernelIdeal.Points
import proofs.«142238_j15994458211424_2_alg».proof.Proof.Gen.KernelIdeal.Frame
import proofs.«142238_j15994458211424_2_alg».proof.Proof.Gen.KernelIdeal.Value
import proofs.«142238_j15994458211424_2_alg».proof.Proof.Gen.ReferenceIdeal
import proofs.«142238_j15994458211424_2_alg».proof.Proof.Gen.ReferenceIdeal.Run
import proofs.«142238_j15994458211424_2_alg».proof.Proof.Gen.ReferenceIdeal.Read
import proofs.«142238_j15994458211424_2_alg».proof.Proof.Gen.Pre_finite_inputs
import proofs.«142238_j15994458211424_2_alg».proof.Proof.Blocks
import proofs.«142238_j15994458211424_2_alg».proof.Proof.HostGlue
import proofs.«142238_j15994458211424_2_alg».proof.Proof.Bridge
import proofs.«142238_j15994458211424_2_alg».proof.Proof.Finite
import Idealize.ShloMosaic.Adequacy
import Idealize.ShloMosaic.Init

noncomputable section

namespace Cert.Proof

open Idealize.ShloMosaic Idealize.SL.Sem Idealize.ShloMosaic.TcCoe

/-- The kernel as printed runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel at the extended reals rewrote no operation. -/
theorem preserves : Cert.preserves_Kernel_KernelIdeal := trivial

/-- From memories agreeing on finite arguments both programs end with the same array: the kernel's blocks assemble to the
    whole-array function of its arguments, and the reference's result, entry by entry, is that function. -/
theorem algebraic : Cert.algebraic_KernelIdeal_ReferenceIdeal := by
  intro m ρ m' ρ' hpre hagree
  refine ⟨fun c => Cert.PdeStep.wholeArray (Cert.KernelIdeal.Gen.V m c Cert.KernelIdeal.main_arg0)
    (Cert.KernelIdeal.Gen.V m c Cert.KernelIdeal.main_arg1) (Cert.KernelIdeal.Gen.V m c Cert.KernelIdeal.main_v0)
    (Cert.KernelIdeal.Gen.V m c Cert.KernelIdeal.main_v1) (Cert.KernelIdeal.Gen.V m c Cert.KernelIdeal.main_v2), ?_, ?_⟩
  · exact (θ_run Cert.KernelIdeal.defs _ _).mono
      (fun r h c => ⟨(h c).1.trans (Cert.PdeStep.Kernel.final m c), (h c).2⟩)
      (Cert.KernelIdeal.Value.run_blocks (F := Ideal) m ρ)
  refine (θ_run Cert.ReferenceIdeal.defs _ _).mono (fun r h c => ⟨(h c).1.trans ?_, (h c).2⟩)
    (Cert.ReferenceIdeal.Value.run (F := Ideal) m' ρ')
  obtain ⟨hS, hF, hN, hC, hA⟩ := Cert.PdeStep.reals_of_pre _ _ _ _ _ (hpre c)
  have e0 := Cert.KernelIdeal.Gen.V_main_arg0 m c
  have e1 := Cert.KernelIdeal.Gen.V_main_arg1 m c
  beta_reduce
  rw [Cert.ReferenceIdeal.Read.val_main_v48_eq, (hagree c).1, (hagree c).2.1, (hagree c).2.2.1, (hagree c).2.2.2.1,
    (hagree c).2.2.2.2, e0, e1]
  exact Cert.PdeStep.reference_eq_wholeArray _ _ _ _ _ _ _ _ (Cert.PdeStep.Kernel.nu4_at m c)
    (Cert.PdeStep.Kernel.cp4_at m c) (Cert.PdeStep.Kernel.fa4_at m c) hS hF hN hC hA

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
